-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x32 : Shape := ⟨2, ![150000, 32]⟩
abbrev S2x600000 : Shape := ⟨2, ![2, 600000]⟩
abbrev S150000 : Shape := ⟨1, ![150000]⟩
abbrev S32x128 : Shape := ⟨2, ![32, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S150000x32 : S_.BroadcastsInDim S150000x32 (![] : Fin 0 → Fin S150000x32.rank)
  reducesTo_S150000x32_S_d0_1 : S150000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part7 {F : FTy → Type} [FloatOps F] (main_v118 : IVec S_ 1) (main_v119 : FVec F S2 .f32) : IVec S_ 1 :=
  let main_cst_46 : FVec F S_ .f32 := constant S_ .f32 0x7F800000#32
  let main_v120 : FVec F S2 .f32 := broadcastInDim S2 ![] bcast_S_S2 main_cst_46
  let main_v121 : IVec S2 1 := cmpf .olt main_v119 main_v120
  let main_c_47 : IVec S_ 1 := constantI S_ 1 1#1
  let main_v122 : IVec S_ 1 := (fun x v => Host.reduce IntOp.andi x v reducesTo_S2_S_d0 h_S_) main_v121 main_c_47
  let main_v123 : IVec S_ 1 := andi main_v118 main_v122
  main_v123

def fn_part6 {F : FTy → Type} [FloatOps F] (main_arg23 : FVec F S128x128 .f32) (main_arg24 : FVec F S128 .f32) (main_arg25 : FVec F S128x2 .f32) (main_arg26 : FVec F S2 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x2 .f32 := Host.absf main_arg25
  let main_cst_44 : FVec F S_ .f32 := constant S_ .f32 0x7F800000#32
  let main_v115 : FVec F S128x2 .f32 := broadcastInDim S128x2 ![] bcast_S_S128x2 main_cst_44
  let main_v116 : IVec S128x2 1 := cmpf .olt main_v114 main_v115
  let main_c_45 : IVec S_ 1 := constantI S_ 1 1#1
  let main_v117 : IVec S_ 1 := (fun x v => Host.reduce IntOp.andi x v reducesTo_S128x2_S_d0_1 h_S_) main_v116 main_c_45
  let main_v118 : IVec S_ 1 := andi main_v113 main_v117
  let main_v119 : FVec F S2 .f32 := Host.absf main_arg26
  fn_part7 (F := F) main_v118 main_v119

def fn_part5 {F : FTy → Type} [FloatOps F] (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S150000x32 .f32) (main_arg1 : IVec S2x600000 32) (main_arg2 : IVec S150000 32) (main_arg3 : FVec F S32x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) : IVec S_ 1 :=
  let main_v0 : FVec F S150000x32 .f32 := Host.absf main_arg0
  let main_cst : FVec F S_ .f32 := constant S_ .f32 0x7F800000#32
  let main_v1 : FVec F S150000x32 .f32 := broadcastInDim S150000x32 ![] bcast_S_S150000x32 main_cst
  let main_v2 : IVec S150000x32 1 := cmpf .olt main_v0 main_v1
  let main_c : IVec S_ 1 := constantI S_ 1 1#1
  let main_v3 : IVec S_ 1 := (fun x v => Host.reduce IntOp.andi x v reducesTo_S150000x32_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S150000x32 : Shape := ⟨2, ![150000, 32]⟩
abbrev S2x600000 : Shape := ⟨2, ![2, 600000]⟩
abbrev S150000 : Shape := ⟨1, ![150000]⟩
abbrev S32x128 : Shape := ⟨2, ![32, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x32 : Shape := ⟨2, ![600000, 32]⟩
abbrev S150000x128 : Shape := ⟨2, ![150000, 128]⟩
abbrev S6000x32 : Shape := ⟨2, ![6000, 32]⟩
abbrev S6000x128 : Shape := ⟨2, ![6000, 128]⟩
abbrev S1x128 : Shape := ⟨2, ![1, 128]⟩
abbrev S600000x128 : Shape := ⟨2, ![600000, 128]⟩
abbrev S2048x128 : Shape := ⟨2, ![2048, 128]⟩
abbrev S150000x1 : Shape := ⟨2, ![150000, 1]⟩
abbrev S2048 : Shape := ⟨1, ![2048]⟩
abbrev S2048x1 : Shape := ⟨2, ![2048, 1]⟩
abbrev S2048x2 : Shape := ⟨2, ![2048, 2]⟩
abbrev S1x2 : Shape := ⟨2, ![1, 2]⟩

abbrev nBuf : Space → Nat
  | .hbm => 110
  | .vmem => 44
  | .smem => 0
  | _ => 0

abbrev bufTy : (tb : Table) → Fin (tcTables nBuf tb) → BufTy
  | .hbm, ⟨0, _⟩ => ⟨S150000x32, .f32⟩
  | .hbm, ⟨1, _⟩ => ⟨S2x600000, .i32⟩
  | .hbm, ⟨2, _⟩ => ⟨S150000, .i32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x2, .f32⟩
  | .hbm, ⟨26, _⟩ => ⟨S2, .f32⟩
  | .hbm, ⟨27, _⟩ => ⟨S1x600000, .i32⟩
  | .hbm, ⟨28, _⟩ => ⟨S600000, .i32⟩
  | .hbm, ⟨29, _⟩ => ⟨S1x600000, .i32⟩
  | .hbm, ⟨30, _⟩ => ⟨S600000, .i32⟩
  | .hbm, ⟨31, _⟩ => ⟨S32x128, .bf16⟩
  | .hbm, ⟨32, _⟩ => ⟨S128x128, .bf16⟩
  | .hbm, ⟨33, _⟩ => ⟨S128x128, .bf16⟩
  | .hbm, ⟨34, _⟩ => ⟨S128x128, .bf16⟩
  | .hbm, ⟨35, _⟩ => ⟨S128x128, .bf16⟩
  | .hbm, ⟨36, _⟩ => ⟨S128x128, .bf16⟩
  | .hbm, ⟨37, _⟩ => ⟨S128x128, .bf16⟩
  | .hbm, ⟨38, _⟩ => ⟨S128x128, .bf16⟩
  | .hbm, ⟨39, _⟩ => ⟨S128x128, .bf16⟩
  | .hbm, ⟨40, _⟩ => ⟨S128x128, .bf16⟩
  | .hbm, ⟨41, _⟩ => ⟨S128x128, .bf16⟩
  | .hbm, ⟨42, _⟩ => ⟨S128x2, .bf16⟩
  | .hbm, ⟨43, _⟩ => ⟨S150000x32, .bf16⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x32, .bf16⟩
  | .hbm, ⟨53, _⟩ => ⟨S600000x32, .f32⟩
  | .hbm, ⟨54, _⟩ => ⟨S_, .f32⟩
  | .hbm, ⟨55, _⟩ => ⟨S150000x32, .f32⟩
  | .hbm, ⟨56, _⟩ => ⟨S600000x1, .i32⟩
  | .hbm, ⟨57, _⟩ => ⟨S150000x32, .f32⟩
  | .hbm, ⟨58, _⟩ => ⟨S150000x32, .bf16⟩
  | .hbm, ⟨59, _⟩ => ⟨S150000x128, .bf16⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .bf16⟩
  | .hbm, ⟨69, _⟩ => ⟨S600000x128, .f32⟩
  | .hbm, ⟨70, _⟩ => ⟨S_, .f32⟩
  | .hbm, ⟨71, _⟩ => ⟨S150000x128, .f32⟩
  | .hbm, ⟨72, _⟩ => ⟨S600000x1, .i32⟩
  | .hbm, ⟨73, _⟩ => ⟨S150000x128, .f32⟩
  | .hbm, ⟨74, _⟩ => ⟨S150000x128, .bf16⟩
  | .hbm, ⟨75, _⟩ => ⟨S150000x128, .bf16⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x128, .bf16⟩
  | .hbm, ⟨85, _⟩ => ⟨S600000x128, .f32⟩
  | .hbm, ⟨86, _⟩ => ⟨S_, .f32⟩
  | .hbm, ⟨87, _⟩ => ⟨S150000x128, .f32⟩
  | .hbm, ⟨88, _⟩ => ⟨S600000x1, .i32⟩
  | .hbm, ⟨89, _⟩ => ⟨S150000x128, .f32⟩
  | .hbm, ⟨90, _⟩ => ⟨S150000x128, .bf16⟩
  | .hbm, ⟨91, _⟩ => ⟨S150000x128, .bf16⟩
  | .hbm, ⟨92, _⟩ => ⟨S150000x128, .f32⟩
  | .hbm, ⟨93, _⟩ => ⟨S_, .f32⟩
  | .hbm, ⟨94, _⟩ => ⟨S2048x128, .f32⟩
  | .hbm, ⟨95, _⟩ => ⟨S150000x1, .i32⟩
  | .hbm, ⟨96, _⟩ => ⟨S2048x128, .f32⟩
  | .hbm, ⟨97, _⟩ => ⟨S_, .f32⟩
  | .hbm, ⟨98, _⟩ => ⟨S150000, .f32⟩
  | .hbm, ⟨99, _⟩ => ⟨S_, .f32⟩
  | .hbm, ⟨100, _⟩ => ⟨S2048, .f32⟩
  | .hbm, ⟨101, _⟩ => ⟨S150000x1, .i32⟩
  | .hbm, ⟨102, _⟩ => ⟨S2048, .f32⟩
  | .hbm, ⟨103, _⟩ => ⟨S_, .f32⟩
  | .hbm, ⟨104, _⟩ => ⟨S2048, .f32⟩
  | .hbm, ⟨105, _⟩ => ⟨S2048, .f32⟩
  | .hbm, ⟨106, _⟩ => ⟨S2048x1, .f32⟩
  | .hbm, ⟨107, _⟩ => ⟨S2048x128, .f32⟩
  | .hbm, ⟨108, _⟩ => ⟨S2048x128, .f32⟩
  | .hbm, ⟨109, _⟩ => ⟨S2048x2, .f32⟩
  | .local _ .vmem, ⟨0, _⟩ => ⟨S6000x32, .bf16⟩
  | .local _ .vmem, ⟨1, _⟩ => ⟨S6000x32, .bf16⟩
  | .local _ .vmem, ⟨2, _⟩ => ⟨S6000x32, .bf16⟩
  | .local _ .vmem, ⟨3, _⟩ => ⟨S6000x32, .bf16⟩
  | .local _ .vmem, ⟨4, _⟩ => ⟨S32x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S6000x128, .bf16⟩
  | .local _ .vmem, ⟨11, _⟩ => ⟨S6000x128, .bf16⟩
  | .local _ .vmem, ⟨12, _⟩ => ⟨S6000x128, .bf16⟩
  | .local _ .vmem, ⟨13, _⟩ => ⟨S6000x128, .bf16⟩
  | .local _ .vmem, ⟨14, _⟩ => ⟨S6000x128, .bf16⟩
  | .local _ .vmem, ⟨15, _⟩ => ⟨S6000x128, .bf16⟩
  | .local _ .vmem, ⟨16, _⟩ => ⟨S128x128, .bf16⟩
  | .local _ .vmem, ⟨17, _⟩ => ⟨S128, .f32⟩
  | .local _ .vmem, ⟨18, _⟩ => ⟨S128x128, .bf16⟩
  | .local _ .vmem, ⟨19, _⟩ => ⟨S128, .f32⟩
  | .local _ .vmem, ⟨20, _⟩ => ⟨S128x128, .bf16⟩
  | .local _ .vmem, ⟨21, _⟩ => ⟨S128, .f32⟩
  | .local _ .vmem, ⟨22, _⟩ => ⟨S6000x128, .bf16⟩
  | .local _ .vmem, ⟨23, _⟩ => ⟨S6000x128, .bf16⟩
  | .local _ .vmem, ⟨24, _⟩ => ⟨S6000x128, .bf16⟩
  | .local _ .vmem, ⟨25, _⟩ => ⟨S6000x128, .bf16⟩
  | .local _ .vmem, ⟨26, _⟩ => ⟨S6000x128, .bf16⟩
  | .local _ .vmem, ⟨27, _⟩ => ⟨S6000x128, .bf16⟩
  | .local _ .vmem, ⟨28, _⟩ => ⟨S128x128, .bf16⟩
  | .local _ .vmem, ⟨29, _⟩ => ⟨S128, .f32⟩
  | .local _ .vmem, ⟨30, _⟩ => ⟨S128x128, .bf16⟩
  | .local _ .vmem, ⟨31, _⟩ => ⟨S128, .f32⟩
  | .local _ .vmem, ⟨32, _⟩ => ⟨S128x128, .bf16⟩
  | .local _ .vmem, ⟨33, _⟩ => ⟨S128, .f32⟩
  | .local _ .vmem, ⟨34, _⟩ => ⟨S6000x128, .bf16⟩
  | .local _ .vmem, ⟨35, _⟩ => ⟨S6000x128, .bf16⟩
  | .local _ .vmem, ⟨36, _⟩ => ⟨S2048x128, .f32⟩
  | .local _ .vmem, ⟨37, _⟩ => ⟨S128x128, .bf16⟩
  | .local _ .vmem, ⟨38, _⟩ => ⟨S128, .f32⟩
  | .local _ .vmem, ⟨39, _⟩ => ⟨S128x128, .bf16⟩
  | .local _ .vmem, ⟨40, _⟩ => ⟨S128, .f32⟩
  | .local _ .vmem, ⟨41, _⟩ => ⟨S128x2, .bf16⟩
  | .local _ .vmem, ⟨42, _⟩ => ⟨S2, .f32⟩
  | .local _ .vmem, ⟨43, _⟩ => ⟨S2048x2, .f32⟩
  | _, _ => ⟨S150000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c : Ref sig .tc := ⟨.hbm, 44, rfl⟩
abbrev main_v17 : Ref sig .tc := ⟨.hbm, 45, rfl⟩
abbrev main_v18 : Ref sig .tc := ⟨.hbm, 46, rfl⟩
abbrev main_c_0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_1 : Ref sig .tc := ⟨.hbm, 60, rfl⟩
abbrev main_v30 : Ref sig .tc := ⟨.hbm, 61, rfl⟩
abbrev main_v31 : Ref sig .tc := ⟨.hbm, 62, rfl⟩
abbrev main_c_2 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_3 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_4 : Ref sig .tc := ⟨.hbm, 76, rfl⟩
abbrev main_v43 : Ref sig .tc := ⟨.hbm, 77, rfl⟩
abbrev main_v44 : Ref sig .tc := ⟨.hbm, 78, rfl⟩
abbrev main_c_5 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_6 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_7 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_8 : Ref sig .tc := ⟨.hbm, 97, rfl⟩
abbrev main_v60 : Ref sig .tc := ⟨.hbm, 98, rfl⟩
abbrev main_cst_9 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_10 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S6000x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S6000x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x2 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2048x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S150000x32 : S_.BroadcastsInDim S150000x32 (![] : Fin 0 → Fin S150000x32.rank)
  inb_S6000x32_S6000x32_0_0 : ∀ a, (![0, 0] : Fin 2 → Nat) a + S6000x32.size a ≤ S6000x32.size a
  h_S6000x32 : 0 < S6000x32.numel
  shapeCasts_S6000x32_S6000x32 : S6000x32.ShapeCasts S6000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S6000x128 : S1x128.Broadcasts S6000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S6000x128_S6000x128_0_0 : ∀ a, (![0, 0] : Fin 2 → Nat) a + S6000x128.size a ≤ S6000x128.size a
  h_S6000x128 : 0 < S6000x128.numel
  packedbf16_S6000x128_S6000x128_0_0 : (Rect.unit (s := S6000x128) ![0, 0] S6000x128.size inb_S6000x128_S6000x128_0_0).PackedRows (EltTy.packing .bf16)
  bcast_S_S150000x128 : S_.BroadcastsInDim S150000x128 (![] : Fin 0 → Fin S150000x128.rank)
  shapeCasts_S6000x128_S6000x128 : S6000x128.ShapeCasts S6000x128
  bcast_S_S2048x128 : S_.BroadcastsInDim S2048x128 (![] : Fin 0 → Fin S2048x128.rank)
  bcast_S150000_S150000x1_0 : S150000.BroadcastsInDim S150000x1 (![0] : Fin 1 → Fin S150000x1.rank)
  bcast_S_S150000 : S_.BroadcastsInDim S150000 (![] : Fin 0 → Fin S150000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  gather_S150000x32_S600000x1_S600000x32_1_0_n_n_0_1_132_wf : GatherDims.WF S150000x32 S600000x1 S600000x32 [1] [0] [] [0] [] 1 ![1, 32]
  scatter_S150000x32_S600000x1_S600000x32_1_0_0_1_wf : ScatterDims.WF S150000x32 S600000x1 S600000x32 [1] [0] [0] 1
  dot_S6000x32_S32x128_S6000x128_1_0_0_1_n_n_wf : DotDims.WF S6000x32 S32x128 S6000x128 [1] [0] [0] [1] [] []
  dot_S6000x128_S128x128_S6000x128_1_0_0_1_n_n_wf : DotDims.WF S6000x128 S128x128 S6000x128 [1] [0] [0] [1] [] []
  gather_S150000x128_S600000x1_S600000x128_1_0_n_n_0_1_1128_wf : GatherDims.WF S150000x128 S600000x1 S600000x128 [1] [0] [] [0] [] 1 ![1, 128]
  scatter_S150000x128_S600000x1_S600000x128_1_0_0_1_wf : ScatterDims.WF S150000x128 S600000x1 S600000x128 [1] [0] [0] 1
  scatter_S2048x128_S150000x1_S150000x128_1_0_0_1_wf : ScatterDims.WF S2048x128 S150000x1 S150000x128 [1] [0] [0] 1
  scatter_S2048_S150000x1_S150000_n_0_0_1_wf : ScatterDims.WF S2048 S150000x1 S150000 [] [0] [0] 1
  dot_S2048x128_S128x128_S2048x128_1_0_0_1_n_n_wf : DotDims.WF S2048x128 S128x128 S2048x128 [1] [0] [0] [1] [] []
  dot_S2048x128_S128x2_S2048x2_1_0_0_1_n_n_wf : DotDims.WF S2048x128 S128x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x32.size a ≤ S150000x32.size a
  hwx0_0 : ∀ i : grid0.Coords, EltTy.bits .bf16 = 32 ∨ (Rect.block (s := S150000x32) S6000x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x32.size a ≤ S150000x32.size a
  hwx0_1 : ∀ i : grid0.Coords, EltTy.bits .bf16 = 32 ∨ (Rect.block (s := S150000x32) S6000x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .bf16 = 32 ∨ (Rect.block (s := S32x128) S32x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6000x128.size a ≤ S150000x128.size a
  hwx0_8 : ∀ i : grid0.Coords, EltTy.bits .bf16 = 32 ∨ (Rect.block (s := S150000x128) S6000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S150000x128.size a
  hwx1_0 : ∀ i : grid1.Coords, EltTy.bits .bf16 = 32 ∨ (Rect.block (s := S150000x128) S6000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S150000x128.size a
  hwx1_1 : ∀ i : grid1.Coords, EltTy.bits .bf16 = 32 ∨ (Rect.block (s := S150000x128) S6000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S6000x128.size a ≤ S150000x128.size a
  hwx1_8 : ∀ i : grid1.Coords, EltTy.bits .bf16 = 32 ∨ (Rect.block (s := S150000x128) S6000x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S150000x128.size a
  hwx2_0 : ∀ i : grid2.Coords, EltTy.bits .bf16 = 32 ∨ (Rect.block (s := S150000x128) S6000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x128.size a ≤ S150000x128.size a
  hwx2_1 : ∀ i : grid2.Coords, EltTy.bits .bf16 = 32 ∨ (Rect.block (s := S150000x128) S6000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S6000x128.size a ≤ S150000x128.size a
  hwx2_8 : ∀ i : grid2.Coords, EltTy.bits .bf16 = 32 ∨ (Rect.block (s := S150000x128) S6000x128.size (cc2_transform_8 i) (hinb2_8 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S2048x128.size a
  hwx3_0 : ∀ i : grid3.Coords, EltTy.bits .f32 = 32 ∨ (Rect.block (s := S2048x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x2.size a ≤ S128x2.size a
  hwx3_5 : ∀ i : grid3.Coords, EltTy.bits .bf16 = 32 ∨ (Rect.block (s := S128x2) S128x2.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2.size a ≤ S2.size a
  hwx3_6 : ∀ i : grid3.Coords, EltTy.bits .f32 = 32 ∨ (Rect.block (s := S2) S2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S2048x2.size a ≤ S2048x2.size a
  hwx3_7 : ∀ i : grid3.Coords, EltTy.bits .f32 = 32 ∨ (Rect.block (s := S2048x2) S2048x2.size (cc3_transform_7 i) (hinb3_7 i)).WholeWords (EltTy.packing .f32)

variable [Facts₀]

def gather_S150000x32_S600000x1_S600000x32_1_0_n_n_0_1_132 : GatherDims S150000x32 S600000x1 S600000x32 where
  offsetDims := [1]
  collapsedSliceDims := [0]
  operandBatchingDims := []
  startIndicesBatchingDims := []
  startIndexMap := [0]
  indexVectorDim := 1
  sliceSizes := ![1, 32]
  wf := gather_S150000x32_S600000x1_S600000x32_1_0_n_n_0_1_132_wf
def scatter_S150000x32_S600000x1_S600000x32_1_0_0_1 : ScatterDims S150000x32 S600000x1 S600000x32 where
  updateWindowDims := [1]
  insertedWindowDims := [0]
  scatterDimsToOperandDims := [0]
  indexVectorDim := 1
  wf := scatter_S150000x32_S600000x1_S600000x32_1_0_0_1_wf
def dot_S6000x32_S32x128_S6000x128_1_0_0_1_n_n : DotDims S6000x32 S32x128 S6000x128 where
  lhsContracting := [1]
  rhsContracting := [0]
  lhsNonContracting := [0]
  rhsNonContracting := [1]
  lhsBatch := []
  rhsBatch := []
  wf := dot_S6000x32_S32x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def gather_S150000x128_S600000x1_S600000x128_1_0_n_n_0_1_1128 : GatherDims S150000x128 S600000x1 S600000x128 where
  offsetDims := [1]
  collapsedSliceDims := [0]
  operandBatchingDims := []
  startIndicesBatchingDims := []
  startIndexMap := [0]
  indexVectorDim := 1
  sliceSizes := ![1, 128]
  wf := gather_S150000x128_S600000x1_S600000x128_1_0_n_n_0_1_1128_wf
def scatter_S150000x128_S600000x1_S600000x128_1_0_0_1 : ScatterDims S150000x128 S600000x1 S600000x128 where
  updateWindowDims := [1]
  insertedWindowDims := [0]
  scatterDimsToOperandDims := [0]
  indexVectorDim := 1
  wf := scatter_S150000x128_S600000x1_S600000x128_1_0_0_1_wf
def scatter_S2048x128_S150000x1_S150000x128_1_0_0_1 : ScatterDims S2048x128 S150000x1 S150000x128 where
  updateWindowDims := [1]
  insertedWindowDims := [0]
  scatterDimsToOperandDims := [0]
  indexVectorDim := 1
  wf := scatter_S2048x128_S150000x1_S150000x128_1_0_0_1_wf
def scatter_S2048_S150000x1_S150000_n_0_0_1 : ScatterDims S2048 S150000x1 S150000 where
  updateWindowDims := []
  insertedWindowDims := [0]
  scatterDimsToOperandDims := [0]
  indexVectorDim := 1
  wf := scatter_S2048_S150000x1_S150000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

abbrev win0_0 : Pipeline.Window sig grid0 :=
  Pipeline.Window.ofSpec (Memref.whole main_v16) S6000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S6000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S6000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v29) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S6000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v42) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S6000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg20) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v55) S6000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v68) S2048x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v13) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg22) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg24) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S128x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg26) S2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v69) S2048x2.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S150000x32 : Shape := ⟨2, ![150000, 32]⟩
abbrev S2x600000 : Shape := ⟨2, ![2, 600000]⟩
abbrev S150000 : Shape := ⟨1, ![150000]⟩
abbrev S32x128 : Shape := ⟨2, ![32, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x32 : Shape := ⟨2, ![600000, 32]⟩
abbrev S150000x128 : Shape := ⟨2, ![150000, 128]⟩
abbrev S1x128 : Shape := ⟨2, ![1, 128]⟩
abbrev S600000x128 : Shape := ⟨2, ![600000, 128]⟩
abbrev S2048x128 : Shape := ⟨2, ![2048, 128]⟩
abbrev S150000x1 : Shape := ⟨2, ![150000, 1]⟩
abbrev S2048 : Shape := ⟨1, ![2048]⟩
abbrev S2048x1 : Shape := ⟨2, ![2048, 1]⟩
abbrev S2048x2 : Shape := ⟨2, ![2048, 2]⟩
abbrev S1x2 : Shape := ⟨2, ![1, 2]⟩

abbrev nBuf : Space → Nat
  | .hbm => 178
  | .vmem => 0
  | .smem => 0
  | _ => 0

abbrev hbmTy0_0 (i : Nat) : BufTy := match i % 128 with
  | 0 => ⟨S150000x32, .f32⟩
  | 1 => ⟨S2x600000, .i32⟩
  | 2 => ⟨S150000, .i32⟩
  | 3 => ⟨S32x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x2, .f32⟩
  | 26 => ⟨S2, .f32⟩
  | 27 => ⟨S1x600000, .i32⟩
  | 28 => ⟨S600000, .i32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x32, .f32⟩
  | 38 => ⟨S1x600000, .i32⟩
  | 39 => ⟨S600000, .i32⟩
  | 40 => ⟨S_, .f32⟩
  | 41 => ⟨S150000x32, .f32⟩
  | 42 => ⟨S600000x1, .i32⟩
  | 43 => ⟨S150000x32, .f32⟩
  | 44 => ⟨S150000x32, .f32⟩
  | 45 => ⟨S150000x128, .f32⟩
  | 46 => ⟨S1x128, .f32⟩
  | 47 => ⟨S150000x128, .f32⟩
  | 48 => ⟨S150000x128, .f32⟩
  | 49 => ⟨S_, .f32⟩
  | 50 => ⟨S150000x128, .f32⟩
  | 51 => ⟨S150000x128, .f32⟩
  | 52 => ⟨S150000x128, .f32⟩
  | 53 => ⟨S1x128, .f32⟩
  | 54 => ⟨S150000x128, .f32⟩
  | 55 => ⟨S150000x128, .f32⟩
  | 56 => ⟨S_, .f32⟩
  | 57 => ⟨S150000x128, .f32⟩
  | 58 => ⟨S150000x128, .f32⟩
  | 59 => ⟨S150000x128, .f32⟩
  | 60 => ⟨S1x128, .f32⟩
  | 61 => ⟨S150000x128, .f32⟩
  | 62 => ⟨S150000x128, .f32⟩
  | 63 => ⟨S_, .f32⟩
  | 64 => ⟨S150000x128, .f32⟩
  | 65 => ⟨S150000x128, .f32⟩
  | 66 => ⟨S1x600000, .i32⟩
  | 67 => ⟨S600000, .i32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S1x600000, .i32⟩
  | 78 => ⟨S600000, .i32⟩
  | 79 => ⟨S_, .f32⟩
  | 80 => ⟨S150000x128, .f32⟩
  | 81 => ⟨S600000x1, .i32⟩
  | 82 => ⟨S150000x128, .f32⟩
  | 83 => ⟨S150000x128, .f32⟩
  | 84 => ⟨S150000x128, .f32⟩
  | 85 => ⟨S1x128, .f32⟩
  | 86 => ⟨S150000x128, .f32⟩
  | 87 => ⟨S150000x128, .f32⟩
  | 88 => ⟨S_, .f32⟩
  | 89 => ⟨S150000x128, .f32⟩
  | 90 => ⟨S150000x128, .f32⟩
  | 91 => ⟨S150000x128, .f32⟩
  | 92 => ⟨S1x128, .f32⟩
  | 93 => ⟨S150000x128, .f32⟩
  | 94 => ⟨S150000x128, .f32⟩
  | 95 => ⟨S_, .f32⟩
  | 96 => ⟨S150000x128, .f32⟩
  | 97 => ⟨S150000x128, .f32⟩
  | 98 => ⟨S150000x128, .f32⟩
  | 99 => ⟨S1x128, .f32⟩
  | 100 => ⟨S150000x128, .f32⟩
  | 101 => ⟨S150000x128, .f32⟩
  | 102 => ⟨S_, .f32⟩
  | 103 => ⟨S150000x128, .f32⟩
  | 104 => ⟨S150000x128, .f32⟩
  | 105 => ⟨S1x600000, .i32⟩
  | 106 => ⟨S600000, .i32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S1x600000, .i32⟩
  | 117 => ⟨S600000, .i32⟩
  | 118 => ⟨S_, .f32⟩
  | 119 => ⟨S150000x128, .f32⟩
  | 120 => ⟨S600000x1, .i32⟩
  | 121 => ⟨S150000x128, .f32⟩
  | 122 => ⟨S150000x128, .f32⟩
  | 123 => ⟨S150000x128, .f32⟩
  | 124 => ⟨S1x128, .f32⟩
  | 125 => ⟨S150000x128, .f32⟩
  | 126 => ⟨S150000x128, .f32⟩
  | 127 => ⟨S_, .f32⟩
  | _ => ⟨S150000x32, .f32⟩

abbrev hbmTy0_1 (i : Nat) : BufTy := match i % 128 with
  | 0 => ⟨S150000x128, .f32⟩
  | 1 => ⟨S150000x128, .f32⟩
  | 2 => ⟨S150000x128, .f32⟩
  | 3 => ⟨S1x128, .f32⟩
  | 4 => ⟨S150000x128, .f32⟩
  | 5 => ⟨S150000x128, .f32⟩
  | 6 => ⟨S_, .f32⟩
  | 7 => ⟨S150000x128, .f32⟩
  | 8 => ⟨S150000x128, .f32⟩
  | 9 => ⟨S150000x128, .f32⟩
  | 10 => ⟨S1x128, .f32⟩
  | 11 => ⟨S150000x128, .f32⟩
  | 12 => ⟨S150000x128, .f32⟩
  | 13 => ⟨S_, .f32⟩
  | 14 => ⟨S150000x128, .f32⟩
  | 15 => ⟨S150000x128, .f32⟩
  | 16 => ⟨S_, .f32⟩
  | 17 => ⟨S2048x128, .f32⟩
  | 18 => ⟨S150000x1, .i32⟩
  | 19 => ⟨S2048x128, .f32⟩
  | 20 => ⟨S_, .f32⟩
  | 21 => ⟨S150000, .f32⟩
  | 22 => ⟨S_, .f32⟩
  | 23 => ⟨S2048, .f32⟩
  | 24 => ⟨S150000x1, .i32⟩
  | 25 => ⟨S2048, .f32⟩
  | 26 => ⟨S_, .f32⟩
  | 27 => ⟨S2048, .f32⟩
  | 28 => ⟨S2048, .f32⟩
  | 29 => ⟨S2048x1, .f32⟩
  | 30 => ⟨S2048x128, .f32⟩
  | 31 => ⟨S2048x128, .f32⟩
  | 32 => ⟨S2048x128, .f32⟩
  | 33 => ⟨S1x128, .f32⟩
  | 34 => ⟨S2048x128, .f32⟩
  | 35 => ⟨S2048x128, .f32⟩
  | 36 => ⟨S_, .f32⟩
  | 37 => ⟨S2048x128, .f32⟩
  | 38 => ⟨S2048x128, .f32⟩
  | 39 => ⟨S2048x128, .f32⟩
  | 40 => ⟨S1x128, .f32⟩
  | 41 => ⟨S2048x128, .f32⟩
  | 42 => ⟨S2048x128, .f32⟩
  | 43 => ⟨S_, .f32⟩
  | 44 => ⟨S2048x128, .f32⟩
  | 45 => ⟨S2048x128, .f32⟩
  | 46 => ⟨S2048x2, .f32⟩
  | 47 => ⟨S1x2, .f32⟩
  | 48 => ⟨S2048x2, .f32⟩
  | 49 => ⟨S2048x2, .f32⟩
  | _ => ⟨S150000x32, .f32⟩

abbrev hbmTy (i : Nat) : BufTy := match i / 128 with
  | 0 => hbmTy0_0 i
  | 1 => hbmTy0_1 i
  | _ => ⟨S150000x32, .f32⟩

abbrev bufTy : (tb : Table) → Fin (tcTables nBuf tb) → BufTy
  | .hbm, ⟨i, _⟩ => hbmTy i
  | _, _ => ⟨S150000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_c : Ref sig .tc := ⟨.hbm, 29, rfl⟩
abbrev main_v2 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call0_cst : Ref sig .tc := ⟨.hbm, 49, rfl⟩
abbrev main_call0_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_call1_cst : Ref sig .tc := ⟨.hbm, 56, rfl⟩
abbrev main_call1_v0 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_call2_cst : Ref sig .tc := ⟨.hbm, 63, rfl⟩
abbrev main_call2_v0 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_1 : Ref sig .tc := ⟨.hbm, 68, rfl⟩
abbrev main_v32 : Ref sig .tc := ⟨.hbm, 69, rfl⟩
abbrev main_v33 : Ref sig .tc := ⟨.hbm, 70, rfl⟩
abbrev main_c_2 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_3 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_call3_cst : Ref sig .tc := ⟨.hbm, 88, rfl⟩
abbrev main_call3_v0 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call4_cst : Ref sig .tc := ⟨.hbm, 95, rfl⟩
abbrev main_call4_v0 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_call5_cst : Ref sig .tc := ⟨.hbm, 102, rfl⟩
abbrev main_call5_v0 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_4 : Ref sig .tc := ⟨.hbm, 107, rfl⟩
abbrev main_v62 : Ref sig .tc := ⟨.hbm, 108, rfl⟩
abbrev main_v63 : Ref sig .tc := ⟨.hbm, 109, rfl⟩
abbrev main_c_5 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_6 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call6_cst : Ref sig .tc := ⟨.hbm, 127, rfl⟩
abbrev main_call6_v0 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_call7_cst : Ref sig .tc := ⟨.hbm, 134, rfl⟩
abbrev main_call7_v0 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_call8_cst : Ref sig .tc := ⟨.hbm, 141, rfl⟩
abbrev main_call8_v0 : Ref sig .tc := ⟨.hbm, 142, rfl⟩
abbrev main_v89 : Ref sig .tc := ⟨.hbm, 143, rfl⟩
abbrev main_cst_7 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_8 : Ref sig .tc := ⟨.hbm, 148, rfl⟩
abbrev main_v93 : Ref sig .tc := ⟨.hbm, 149, rfl⟩
abbrev main_cst_9 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_10 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_call9_cst : Ref sig .tc := ⟨.hbm, 164, rfl⟩
abbrev main_call9_v0 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call10_cst : Ref sig .tc := ⟨.hbm, 171, rfl⟩
abbrev main_call10_v0 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S150000x32 : S_.BroadcastsInDim S150000x32 (![] : Fin 0 → Fin S150000x32.rank)
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  bcast_S_S150000x128 : S_.BroadcastsInDim S150000x128 (![] : Fin 0 → Fin S150000x128.rank)
  bcast_S_S2048x128 : S_.BroadcastsInDim S2048x128 (![] : Fin 0 → Fin S2048x128.rank)
  bcast_S150000_S150000x1_0 : S150000.BroadcastsInDim S150000x1 (![0] : Fin 1 → Fin S150000x1.rank)
  bcast_S_S150000 : S_.BroadcastsInDim S150000 (![] : Fin 0 → Fin S150000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  gather_S150000x32_S600000x1_S600000x32_1_0_n_n_0_1_132_wf : GatherDims.WF S150000x32 S600000x1 S600000x32 [1] [0] [] [0] [] 1 ![1, 32]
  scatter_S150000x32_S600000x1_S600000x32_1_0_0_1_wf : ScatterDims.WF S150000x32 S600000x1 S600000x32 [1] [0] [0] 1
  dot_S150000x32_S32x128_S150000x128_1_0_0_1_n_n_wf : DotDims.WF S150000x32 S32x128 S150000x128 [1] [0] [0] [1] [] []
  dot_S150000x128_S128x128_S150000x128_1_0_0_1_n_n_wf : DotDims.WF S150000x128 S128x128 S150000x128 [1] [0] [0] [1] [] []
  gather_S150000x128_S600000x1_S600000x128_1_0_n_n_0_1_1128_wf : GatherDims.WF S150000x128 S600000x1 S600000x128 [1] [0] [] [0] [] 1 ![1, 128]
  scatter_S150000x128_S600000x1_S600000x128_1_0_0_1_wf : ScatterDims.WF S150000x128 S600000x1 S600000x128 [1] [0] [0] 1
  scatter_S2048x128_S150000x1_S150000x128_1_0_0_1_wf : ScatterDims.WF S2048x128 S150000x1 S150000x128 [1] [0] [0] 1
  scatter_S2048_S150000x1_S150000_n_0_0_1_wf : ScatterDims.WF S2048 S150000x1 S150000 [] [0] [0] 1
  dot_S2048x128_S128x128_S2048x128_1_0_0_1_n_n_wf : DotDims.WF S2048x128 S128x128 S2048x128 [1] [0] [0] [1] [] []
  dot_S2048x128_S128x2_S2048x2_1_0_0_1_n_n_wf : DotDims.WF S2048x128 S128x2 S2048x2 [1] [0] [0] [1] [] []

variable [Facts₀]

def gather_S150000x32_S600000x1_S600000x32_1_0_n_n_0_1_132 : GatherDims S150000x32 S600000x1 S600000x32 where
  offsetDims := [1]
  collapsedSliceDims := [0]
  operandBatchingDims := []
  startIndicesBatchingDims := []
  startIndexMap := [0]
  indexVectorDim := 1
  sliceSizes := ![1, 32]
  wf := gather_S150000x32_S600000x1_S600000x32_1_0_n_n_0_1_132_wf
def scatter_S150000x32_S600000x1_S600000x32_1_0_0_1 : ScatterDims S150000x32 S600000x1 S600000x32 where
  updateWindowDims := [1]
  insertedWindowDims := [0]
  scatterDimsToOperandDims := [0]
  indexVectorDim := 1
  wf := scatter_S150000x32_S600000x1_S600000x32_1_0_0_1_wf
def dot_S150000x32_S32x128_S150000x128_1_0_0_1_n_n : DotDims S150000x32 S32x128 S150000x128 where
  lhsContracting := [1]
  rhsContracting := [0]
  lhsNonContracting := [0]
  rhsNonContracting := [1]
  lhsBatch := []
  rhsBatch := []
  wf := dot_S150000x32_S32x128_S150000x128_1_0_0_1_n_n_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf
def gather_S150000x128_S600000x1_S600000x128_1_0_n_n_0_1_1128 : GatherDims S150000x128 S600000x1 S600000x128 where
  offsetDims := [1]
  collapsedSliceDims := [0]
  operandBatchingDims := []
  startIndicesBatchingDims := []
  startIndexMap := [0]
  indexVectorDim := 1
  sliceSizes := ![1, 128]
  wf := gather_S150000x128_S600000x1_S600000x128_1_0_n_n_0_1_1128_wf
def scatter_S150000x128_S600000x1_S600000x128_1_0_0_1 : ScatterDims S150000x128 S600000x1 S600000x128 where
  updateWindowDims := [1]
  insertedWindowDims := [0]
  scatterDimsToOperandDims := [0]
  indexVectorDim := 1
  wf := scatter_S150000x128_S600000x1_S600000x128_1_0_0_1_wf
def scatter_S2048x128_S150000x1_S150000x128_1_0_0_1 : ScatterDims S2048x128 S150000x1 S150000x128 where
  updateWindowDims := [1]
  insertedWindowDims := [0]
  scatterDimsToOperandDims := [0]
  indexVectorDim := 1
  wf := scatter_S2048x128_S150000x1_S150000x128_1_0_0_1_wf
def scatter_S2048_S150000x1_S150000_n_0_0_1 : ScatterDims S2048 S150000x1 S150000 where
  updateWindowDims := []
  insertedWindowDims := [0]
  scatterDimsToOperandDims := [0]
  indexVectorDim := 1
  wf := scatter_S2048_S150000x1_S150000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

class Facts : Prop extends Facts₀ where

variable [Facts]
-- ==== Proof.KernelResult.lean ====
/-
  The idealized kernel's run with its result named.

  @main is eight segments: four stretches of host operations, each followed by one pipelined region.  The contents of
  every unscoped buffer at each segment boundary are a fold from the launch memory (a stretch applies its operations;
  a region leaves its arrays at what its write-backs leave and every other buffer as entered).  Every weakly fair
  execution terminates with each unscoped buffer at the last boundary's contents; read at the result buffer this is
  the result, and read at an argument buffer it walks back to the launch memory.
-/
import proofs.«155467_j53996328846048_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the argument arrays as launched. -/
theorem run_result : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c)⟩)

end Cert.KernelIdeal.Result

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«155467_j53996328846048_2_alg».proof.Proof.LibDotEntry
import proofs.«155467_j53996328846048_2_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibRowStages.lean ====
/-
  A rectified dense stage, row by row.

  Row p of a rectified dense stage depends on row p of its input only: entry (p, q) is
  max(Σₖ in(p, k)·w(k, q) + b(q), 0).  `dense` and `relu` say this for one row; `stage` is the two composed.  The
  TensorCore's spelling of the stage (a product into a zero accumulator, the bias cast to a row and repeated down the
  rows, the maximum with a splat zero, a change of float format around it) and the host's spelling (a dot_general, the
  bias laid out by two broadcasts, the maximum with a broadcast zero) both read `stage` of the input's row at every
  entry, whatever the extents.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«155467_j53996328846048_2_alg».proof.Proof.LibDenseLayer

noncomputable section

namespace Cert.Layers

open Idealize.ShloMosaic Idealize.ShloMosaic.TcCoe Idealize.SL.Sem Idealize.ShloMosaic.ValueIdx
open Cert.Lib.DenseLayer

/-- One row times a K×n weight matrix plus the bias: q ↦ Σₖ x(k)·w(k, q) + b(q). -/
def dense {K n : ℕ} (w : (⟨2, ![K, n]⟩ : Shape).Idx → EReal) (b : (⟨1, ![n]⟩ : Shape).Idx → EReal)
    (x : Fin K → EReal) : Fin n → EReal :=
  fun q => (∑ k : Fin K, x k * w (ix2 k q)) + b (ix1 q)

/-- The rectifier on a row. -/
def relu {n : ℕ} (v : Fin n → EReal) : Fin n → EReal := fun q => max (v q) 0

/-- A rectified dense stage on a row. -/
def stage {K n : ℕ} (w : (⟨2, ![K, n]⟩ : Shape).Idx → EReal) (b : (⟨1, ![n]⟩ : Shape).Idx → EReal)
    (x : Fin K → EReal) : Fin n → EReal := relu (dense w b x)

/-- Row p of a matrix. -/
def row {m K : ℕ} (a : (⟨2, ![m, K]⟩ : Shape).Idx → EReal) (p : Fin m) : Fin K → EReal := fun k => a (ix2 p k)

/-- A graph-convolution layer on whole arrays: row r of the result is three rectified dense stages of row r of
    x + agg.  Entry (r, q) reads rows r of `x` and `agg` and nothing else of them. -/
def layer {N K : ℕ} (x agg : (⟨2, ![N, K]⟩ : Shape).Idx → EReal)
    (w1 : (⟨2, ![K, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (w3 : (⟨2, ![128, 128]⟩ : Shape).Idx → EReal) (b3 : (⟨1, ![128]⟩ : Shape).Idx → EReal) :
    (⟨2, ![N, 128]⟩ : Shape).Idx → EReal :=
  fun i => stage w3 b3 (stage w2 b2 (stage w1 b1 (fun k => x (ix2 (i 0) k) + agg (ix2 (i 0) k)))) (i 1)

/-- The classifier head on whole arrays: row r of the result is two rectified dense stages and one plain dense
    stage of row r of the pooled features. -/
def head {N : ℕ} (g : (⟨2, ![N, 128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (w3 : (⟨2, ![128, 2]⟩ : Shape).Idx → EReal) (b3 : (⟨1, ![2]⟩ : Shape).Idx → EReal) :
    (⟨2, ![N, 2]⟩ : Shape).Idx → EReal :=
  fun i => dense w3 b3 (stage w2 b2 (stage w1 b1 (row g (i 0)))) (i 1)

variable {m K n : ℕ} {D : DotDims ⟨2, ![m, K]⟩ ⟨2, ![K, n]⟩ ⟨2, ![m, n]⟩}

/-- The TensorCore's dense stage without a rectifier, at entry (p, q). -/
theorem kernel_dense (hD : IsMatProduct D) {φ₁ φ₂ : FTy} (a : FVec Ideal ⟨2, ![m, K]⟩ φ₁)
    (w : FVec Ideal ⟨2, ![K, n]⟩ φ₂) (hw : (⟨2, ![K, n]⟩ : Shape).ShapeCasts ⟨2, ![K, n]⟩)
    (b : FVec Ideal ⟨1, ![n]⟩ .f32) (hsc : (⟨1, ![n]⟩ : Shape).ShapeCasts ⟨2, ![1, n]⟩)
    (hbc : (⟨2, ![1, n]⟩ : Shape).Broadcasts ⟨2, ![m, n]⟩) (p : Fin m) (q : Fin n) :
    addf (matmul D none a (shapeCast ⟨2, ![K, n]⟩ w hw) (constant (F := Ideal) ⟨2, ![m, n]⟩ .f32 0x00000000#32))
        (broadcastTo ⟨2, ![m, n]⟩ (shapeCast ⟨2, ![1, n]⟩ b hsc) hbc) (ix2 p q)
      = dense w b (row a p) q := by
  rw [shapeCast_self, dense_entry hD]
  rfl

/-- The TensorCore's rectified dense stage, its result narrowed to another float format, at entry (p, q). -/
theorem kernel_stage (hD : IsMatProduct D) {φ₁ φ₂ ψ : FTy} (hψ : ψ.bits < FTy.f32.bits) (a : FVec Ideal ⟨2, ![m, K]⟩ φ₁)
    (w : FVec Ideal ⟨2, ![K, n]⟩ φ₂) (hw : (⟨2, ![K, n]⟩ : Shape).ShapeCasts ⟨2, ![K, n]⟩)
    (b : FVec Ideal ⟨1, ![n]⟩ .f32) (hsc : (⟨1, ![n]⟩ : Shape).ShapeCasts ⟨2, ![1, n]⟩)
    (hbc : (⟨2, ![1, n]⟩ : Shape).Broadcasts ⟨2, ![m, n]⟩) (p : Fin m) (q : Fin n) :
    (truncf ψ (maximumf
        (addf (matmul D none a (shapeCast ⟨2, ![K, n]⟩ w hw) (constant (F := Ideal) ⟨2, ![m, n]⟩ .f32 0x00000000#32))
          (broadcastTo ⟨2, ![m, n]⟩ (shapeCast ⟨2, ![1, n]⟩ b hsc) hbc))
        (broadcast ⟨2, ![m, n]⟩ (Scalar.ofBits (F := Ideal) .f32 0x00000000#32))) hψ : FVec Ideal ⟨2, ![m, n]⟩ ψ) (ix2 p q)
      = stage w b (row a p) q := by
  rw [truncf_apply, maximumf_apply, kernel_dense hD, broadcast_apply]
  show max _ (Ideal.ofBits .f32 0x00000000#32) = max _ 0
  rw [Ideal.ofBits_zero_f32]

/-- The host's dense stage without a rectifier, at entry (p, q). -/
theorem host_dense (hD : IsMatProduct D) (a : FVec Ideal ⟨2, ![m, K]⟩ .f32) (w : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none a w)
        (broadcastInDim ⟨2, ![m, n]⟩ ![0, 1] h₂ (broadcastInDim ⟨2, ![1, n]⟩ ![1] h₁ b)) (ix2 p q)
      = dense w b (row a p) q := by
  rw [host_dense_entry hD]
  rfl

/-- The host's rectified dense stage, at entry (p, q). -/
theorem host_stage (hD : IsMatProduct D) (a : FVec Ideal ⟨2, ![m, K]⟩ .f32) (w : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2))
    (h₀ : (⟨0, ![]⟩ : Shape).BroadcastsInDim ⟨2, ![m, n]⟩ ![]) (p : Fin m) (q : Fin n) :
    maximumf (addf (Host.dotGeneral (F := Ideal) D none a w)
          (broadcastInDim ⟨2, ![m, n]⟩ ![0, 1] h₂ (broadcastInDim ⟨2, ![1, n]⟩ ![1] h₁ b)))
        (broadcastInDim ⟨2, ![m, n]⟩ ![] h₀ (constant (F := Ideal) ⟨0, ![]⟩ .f32 0x00000000#32)) (ix2 p q)
      = stage w b (row a p) q := by
  rw [maximumf_apply, host_dense hD, broadcastInDim_scalar_apply, constant_apply, Ideal.ofBits_zero_f32]
  rfl

end Cert.Layers

end
-- ==== Proof.Net.lean ====
/-
  The network as one function of the argument arrays.

  Both programs compute the same composition.  A graph-convolution layer first sums, for every node, the feature rows
  of the nodes its incoming edges start at (`agg32` / `agg128`: the edge list's first row — a negative entry wrapped by
  the node count — selects rows, which are then added into the slots the edge list's second row names), then applies
  three rectified dense stages to each row of features + sums (`Layers.layer`).  After three such layers the node rows
  are averaged per graph (`pool`: per-graph sums divided by the per-graph node count, the count floored at one), and
  the classifier head (`Layers.head`) is applied to each graph's row.  The two index-driven steps are kept as the
  host operations both programs print; nothing below opens them.
-/
import proofs.«155467_j53996328846048_2_alg».proof.Proof.Gen.KernelIdeal
import proofs.«155467_j53996328846048_2_alg».proof.Proof.LibRowStages

noncomputable section

namespace Cert.Net

open Cert.KernelIdeal Cert.KernelIdeal.Facts₀ Cert.KernelIdeal.Facts Cert.Layers
open Idealize.ShloMosaic Idealize.ShloMosaic.TcCoe Idealize.SL.Sem Idealize.ShloMosaic.ValueIdx

/-- The edge list's first row, a negative entry wrapped by the node count, as a column of row indices. -/
def srcCol (ei : (⟨S2x600000, .i32⟩ : BufTy).Contents (Elt Ideal)) : (⟨S600000x1, .i32⟩ : BufTy).Contents (Elt Ideal) :=
  broadcastInDim S600000x1 ![0] bcast_S600000_S600000x1_0
    (select (cmpi .slt (shapeCast _ (extractStridedSlice S1x600000 ![0, 0] ei slices_S2x600000_S1x600000_0_0) shapeCasts_S1x600000_S600000) (broadcastInDim S600000 ![] bcast_S_S600000 (constantI S_ 32 0#32)))
      (addi (shapeCast _ (extractStridedSlice S1x600000 ![0, 0] ei slices_S2x600000_S1x600000_0_0) shapeCasts_S1x600000_S600000) (broadcastInDim S600000 ![] bcast_S_S600000 (constantI S_ 32 150000#32)))
      (shapeCast _ (extractStridedSlice S1x600000 ![0, 0] ei slices_S2x600000_S1x600000_0_0) shapeCasts_S1x600000_S600000))

/-- The edge list's second row as a column of row indices. -/
def dstCol (ei : (⟨S2x600000, .i32⟩ : BufTy).Contents (Elt Ideal)) : (⟨S600000x1, .i32⟩ : BufTy).Contents (Elt Ideal) :=
  broadcastInDim S600000x1 ![0] bcast_S600000_S600000x1_0
    (shapeCast _ (extractStridedSlice S1x600000 ![1, 0] ei slices_S2x600000_S1x600000_1_0) shapeCasts_S1x600000_S600000)

/-- Per node, the sum of the 32-wide feature rows its incoming edges start at. -/
def agg32 (x : (⟨S150000x32, .f32⟩ : BufTy).Contents (Elt Ideal)) (ei : (⟨S2x600000, .i32⟩ : BufTy).Contents (Elt Ideal)) :
    (⟨S150000x32, .f32⟩ : BufTy).Contents (Elt Ideal) :=
  Host.scatterAdd (F := Ideal) scatter_S150000x32_S600000x1_S600000x32_1_0_0_1
    (broadcastInDim S150000x32 ![] bcast_S_S150000x32 (constant (F := Ideal) S_ .f32 0x00000000#32)) (dstCol ei)
    (Host.gather gather_S150000x32_S600000x1_S600000x32_1_0_n_n_0_1_132 x (srcCol ei))

/-- Per node, the sum of the 128-wide feature rows its incoming edges start at. -/
def agg128 (h : (⟨S150000x128, .f32⟩ : BufTy).Contents (Elt Ideal)) (ei : (⟨S2x600000, .i32⟩ : BufTy).Contents (Elt Ideal)) :
    (⟨S150000x128, .f32⟩ : BufTy).Contents (Elt Ideal) :=
  Host.scatterAdd (F := Ideal) scatter_S150000x128_S600000x1_S600000x128_1_0_0_1
    (broadcastInDim S150000x128 ![] bcast_S_S150000x128 (constant (F := Ideal) S_ .f32 0x00000000#32)) (dstCol ei)
    (Host.gather gather_S150000x128_S600000x1_S600000x128_1_0_n_n_0_1_1128 h (srcCol ei))

/-- Per graph, the mean of its nodes' feature rows: the per-graph sums over the per-graph node count floored at one. -/
def pool (h : (⟨S150000x128, .f32⟩ : BufTy).Contents (Elt Ideal)) (batch : (⟨S150000, .i32⟩ : BufTy).Contents (Elt Ideal)) :
    (⟨S2048x128, .f32⟩ : BufTy).Contents (Elt Ideal) :=
  Host.divf (F := Ideal)
    (Host.scatterAdd (F := Ideal) scatter_S2048x128_S150000x1_S150000x128_1_0_0_1
      (broadcastInDim S2048x128 ![] bcast_S_S2048x128 (constant (F := Ideal) S_ .f32 0x00000000#32))
      (broadcastInDim S150000x1 ![0] bcast_S150000_S150000x1_0 batch) h)
    (broadcastInDim S2048x128 ![0, 1] bcast_S2048x1_S2048x128_0_1
      (broadcastInDim S2048x1 ![0] bcast_S2048_S2048x1_0
        (maximumf (F := Ideal)
          (Host.scatterAdd (F := Ideal) scatter_S2048_S150000x1_S150000_n_0_0_1
            (broadcastInDim S2048 ![] bcast_S_S2048 (constant (F := Ideal) S_ .f32 0x00000000#32))
            (broadcastInDim S150000x1 ![0] bcast_S150000_S150000x1_0 batch)
            (broadcastInDim S150000 ![] bcast_S_S150000 (constant (F := Ideal) S_ .f32 0x3F800000#32)))
          (broadcastInDim S2048 ![] bcast_S_S2048 (constant (F := Ideal) S_ .f32 0x3F800000#32)))))

/-- The features after the first layer. -/
def h1 (x : S150000x32.Idx → EReal) (ei : (⟨S2x600000, .i32⟩ : BufTy).Contents (Elt Ideal))
    (w1 : S32x128.Idx → EReal) (b1 : S128.Idx → EReal) (w2 : S128x128.Idx → EReal) (b2 : S128.Idx → EReal)
    (w3 : S128x128.Idx → EReal) (b3 : S128.Idx → EReal) : S150000x128.Idx → EReal :=
  layer x (agg32 x ei) w1 b1 w2 b2 w3 b3

/-- The features after a further layer. -/
def hNext (h : S150000x128.Idx → EReal) (ei : (⟨S2x600000, .i32⟩ : BufTy).Contents (Elt Ideal))
    (w1 : S128x128.Idx → EReal) (b1 : S128.Idx → EReal) (w2 : S128x128.Idx → EReal) (b2 : S128.Idx → EReal)
    (w3 : S128x128.Idx → EReal) (b3 : S128.Idx → EReal) : S150000x128.Idx → EReal :=
  layer h (agg128 h ei) w1 b1 w2 b2 w3 b3

/-- The classifier's scores of every graph, as one function of the 27 argument arrays. -/
def network (x : S150000x32.Idx → EReal) (ei : (⟨S2x600000, .i32⟩ : BufTy).Contents (Elt Ideal))
    (batch : (⟨S150000, .i32⟩ : BufTy).Contents (Elt Ideal))
    (a3 : S32x128.Idx → EReal) (a4 : S128.Idx → EReal) (a5 : S128x128.Idx → EReal) (a6 : S128.Idx → EReal)
    (a7 : S128x128.Idx → EReal) (a8 : S128.Idx → EReal)
    (a9 : S128x128.Idx → EReal) (a10 : S128.Idx → EReal) (a11 : S128x128.Idx → EReal) (a12 : S128.Idx → EReal)
    (a13 : S128x128.Idx → EReal) (a14 : S128.Idx → EReal)
    (a15 : S128x128.Idx → EReal) (a16 : S128.Idx → EReal) (a17 : S128x128.Idx → EReal) (a18 : S128.Idx → EReal)
    (a19 : S128x128.Idx → EReal) (a20 : S128.Idx → EReal)
    (a21 : S128x128.Idx → EReal) (a22 : S128.Idx → EReal) (a23 : S128x128.Idx → EReal) (a24 : S128.Idx → EReal)
    (a25 : S128x2.Idx → EReal) (a26 : S2.Idx → EReal) : S2048x2.Idx → EReal :=
  head (pool (hNext (hNext (h1 x ei a3 a4 a5 a6 a7 a8) ei a9 a10 a11 a12 a13 a14) ei a15 a16 a17 a18 a19 a20) batch)
    a21 a22 a23 a24 a25 a26

end Cert.Net

end
-- ==== Proof.FoldBase.lean ====
/-
  The kernel's fold of buffer contents: the layers' outputs as functions of the launch memory.

  `H1`, `H2`, `H3` are the node features after each graph-convolution layer and `P` the per-graph means, each of the
  launch contents of the argument arrays; at exact arithmetic a change of float format is the identity.
-/
import proofs.«155467_j53996328846048_2_alg».proof.Proof.Gen.KernelIdeal.Frame
import proofs.«155467_j53996328846048_2_alg».proof.Proof.Net
import Idealize.ShloMosaic.Lib.StableHlo.Run

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- At exact arithmetic a change of float format is the identity. -/
theorem truncf_id {s : Shape} {φ ψ : FTy} (a : FVec Ideal s φ) (h : ψ.bits < φ.bits) :
    ((truncf ψ a h : FVec Ideal s ψ) : s.Idx → EReal) = (a : s.Idx → EReal) := rfl
theorem extf_id {s : Shape} {φ ψ : FTy} (a : FVec Ideal s φ) (h : φ.bits < ψ.bits) :
    ((extf ψ a h : FVec Ideal s ψ) : s.Idx → EReal) = (a : s.Idx → EReal) := rfl

/-- The features after each layer and the per-graph means, of the launch contents. -/
def H1 (c : Dev nD) : S150000x128.Idx → EReal := h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
def H2 (c : Dev nD) : S150000x128.Idx → EReal := hNext (H1 m c) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
def H3 (c : Dev nD) : S150000x128.Idx → EReal := hNext (H2 m c) (m ((c : Thread nD τ).loc main_arg1)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
def P (c : Dev nD) : S2048x128.Idx → EReal := pool (H3 m c) (m ((c : Thread nD τ).loc main_arg2))

end Cert.KernelIdeal.Fold

end
-- ==== Proof.FoldWalkA.lean ====
/-
  Walk-back, first group: region 0's parameters, the edge list's rows, the graph ids.

  A buffer that no region writes and that only the first stretch of host operations may write keeps, at every later
  segment boundary, what the first stretch left in it: a parameter array cast to the narrower format (the array
  itself, at exact arithmetic), an argument array, or a row of the edge list.
-/
import proofs.«155467_j53996328846048_2_alg».proof.Proof.FoldBase

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

theorem w1_v16 (c : Dev nD) : (W1 m ρ c (Proc.devRef .tc main_v16) : S150000x32.Idx → EReal) = (m ((c : Thread nD τ).loc main_arg0)) := by
  dsimp only [W1, hostOps0]; after_results_simp <;> rfl

theorem w1_v4 (c : Dev nD) : (W1 m ρ c (Proc.devRef .tc main_v4) : S32x128.Idx → EReal) = (m ((c : Thread nD τ).loc main_arg3)) := by
  dsimp only [W1, hostOps0]; after_results_simp <;> rfl

theorem w1_arg4 (c : Dev nD) : (W1 m ρ c (Proc.devRef .tc main_arg4) : S128.Idx → EReal) = (m ((c : Thread nD τ).loc main_arg4)) := by
  dsimp only [W1, hostOps0]; after_results_simp <;> rfl

theorem w1_v5 (c : Dev nD) : (W1 m ρ c (Proc.devRef .tc main_v5) : S128x128.Idx → EReal) = (m ((c : Thread nD τ).loc main_arg5)) := by
  dsimp only [W1, hostOps0]; after_results_simp <;> rfl

theorem w1_arg6 (c : Dev nD) : (W1 m ρ c (Proc.devRef .tc main_arg6) : S128.Idx → EReal) = (m ((c : Thread nD τ).loc main_arg6)) := by
  dsimp only [W1, hostOps0]; after_results_simp <;> rfl

theorem w1_v6 (c : Dev nD) : (W1 m ρ c (Proc.devRef .tc main_v6) : S128x128.Idx → EReal) = (m ((c : Thread nD τ).loc main_arg7)) := by
  dsimp only [W1, hostOps0]; after_results_simp <;> rfl

theorem w1_arg8 (c : Dev nD) : (W1 m ρ c (Proc.devRef .tc main_arg8) : S128.Idx → EReal) = (m ((c : Thread nD τ).loc main_arg8)) := by
  dsimp only [W1, hostOps0]; after_results_simp <;> rfl

theorem w1_v1 (c : Dev nD) : (W1 m ρ c (Proc.devRef .tc main_v1) : (⟨S600000, .i32⟩ : BufTy).Contents (Elt Ideal)) = (shapeCast S600000 (extractStridedSlice S1x600000 ![0, 0] (m ((c : Thread nD τ).loc main_arg1)) slices_S2x600000_S1x600000_0_0) shapeCasts_S1x600000_S600000) := by
  dsimp only [W1, hostOps0]; after_results_simp <;> rfl
theorem w2_v1 (c : Dev nD) : (W2 m ρ c (Proc.devRef .tc main_v1) : (⟨S600000, .i32⟩ : BufTy).Contents (Elt Ideal)) = (shapeCast S600000 (extractStridedSlice S1x600000 ![0, 0] (m ((c : Thread nD τ).loc main_arg1)) slices_S2x600000_S1x600000_0_0) shapeCasts_S1x600000_S600000) :=
  (W2_of_ne m ρ c main_v1 (by decide)).trans (w1_v1 m ρ c)
theorem w3_v1 (c : Dev nD) : (W3 m ρ c (Proc.devRef .tc main_v1) : (⟨S600000, .i32⟩ : BufTy).Contents (Elt Ideal)) = (shapeCast S600000 (extractStridedSlice S1x600000 ![0, 0] (m ((c : Thread nD τ).loc main_arg1)) slices_S2x600000_S1x600000_0_0) shapeCasts_S1x600000_S600000) :=
  (by dsimp only [W3, hostOps1]; after_results_simp : W3 m ρ c (Proc.devRef .tc main_v1) = W2 m ρ c (Proc.devRef .tc main_v1)).trans (w2_v1 m ρ c)
theorem w4_v1 (c : Dev nD) : (W4 m ρ c (Proc.devRef .tc main_v1) : (⟨S600000, .i32⟩ : BufTy).Contents (Elt Ideal)) = (shapeCast S600000 (extractStridedSlice S1x600000 ![0, 0] (m ((c : Thread nD τ).loc main_arg1)) slices_S2x600000_S1x600000_0_0) shapeCasts_S1x600000_S600000) :=
  (W4_of_ne m ρ c main_v1 (by decide)).trans (w3_v1 m ρ c)

theorem w1_v3 (c : Dev nD) : (W1 m ρ c (Proc.devRef .tc main_v3) : (⟨S600000, .i32⟩ : BufTy).Contents (Elt Ideal)) = (shapeCast S600000 (extractStridedSlice S1x600000 ![1, 0] (m ((c : Thread nD τ).loc main_arg1)) slices_S2x600000_S1x600000_1_0) shapeCasts_S1x600000_S600000) := by
  dsimp only [W1, hostOps0]; after_results_simp <;> rfl
theorem w2_v3 (c : Dev nD) : (W2 m ρ c (Proc.devRef .tc main_v3) : (⟨S600000, .i32⟩ : BufTy).Contents (Elt Ideal)) = (shapeCast S600000 (extractStridedSlice S1x600000 ![1, 0] (m ((c : Thread nD τ).loc main_arg1)) slices_S2x600000_S1x600000_1_0) shapeCasts_S1x600000_S600000) :=
  (W2_of_ne m ρ c main_v3 (by decide)).trans (w1_v3 m ρ c)
theorem w3_v3 (c : Dev nD) : (W3 m ρ c (Proc.devRef .tc main_v3) : (⟨S600000, .i32⟩ : BufTy).Contents (Elt Ideal)) = (shapeCast S600000 (extractStridedSlice S1x600000 ![1, 0] (m ((c : Thread nD τ).loc main_arg1)) slices_S2x600000_S1x600000_1_0) shapeCasts_S1x600000_S600000) :=
  (by dsimp only [W3, hostOps1]; after_results_simp : W3 m ρ c (Proc.devRef .tc main_v3) = W2 m ρ c (Proc.devRef .tc main_v3)).trans (w2_v3 m ρ c)
theorem w4_v3 (c : Dev nD) : (W4 m ρ c (Proc.devRef .tc main_v3) : (⟨S600000, .i32⟩ : BufTy).Contents (Elt Ideal)) = (shapeCast S600000 (extractStridedSlice S1x600000 ![1, 0] (m ((c : Thread nD τ).loc main_arg1)) slices_S2x600000_S1x600000_1_0) shapeCasts_S1x600000_S600000) :=
  (W4_of_ne m ρ c main_v3 (by decide)).trans (w3_v3 m ρ c)

theorem w1_arg2 (c : Dev nD) : (W1 m ρ c (Proc.devRef .tc main_arg2) : (⟨S150000, .i32⟩ : BufTy).Contents (Elt Ideal)) = (m ((c : Thread nD τ).loc main_arg2)) := by
  dsimp only [W1, hostOps0]; after_results_simp <;> rfl
theorem w2_arg2 (c : Dev nD) : (W2 m ρ c (Proc.devRef .tc main_arg2) : (⟨S150000, .i32⟩ : BufTy).Contents (Elt Ideal)) = (m ((c : Thread nD τ).loc main_arg2)) :=
  (W2_of_ne m ρ c main_arg2 (by decide)).trans (w1_arg2 m ρ c)
theorem w3_arg2 (c : Dev nD) : (W3 m ρ c (Proc.devRef .tc main_arg2) : (⟨S150000, .i32⟩ : BufTy).Contents (Elt Ideal)) = (m ((c : Thread nD τ).loc main_arg2)) :=
  (by dsimp only [W3, hostOps1]; after_results_simp : W3 m ρ c (Proc.devRef .tc main_arg2) = W2 m ρ c (Proc.devRef .tc main_arg2)).trans (w2_arg2 m ρ c)
theorem w4_arg2 (c : Dev nD) : (W4 m ρ c (Proc.devRef .tc main_arg2) : (⟨S150000, .i32⟩ : BufTy).Contents (Elt Ideal)) = (m ((c : Thread nD τ).loc main_arg2)) :=
  (W4_of_ne m ρ c main_arg2 (by decide)).trans (w3_arg2 m ρ c)
theorem w5_arg2 (c : Dev nD) : (W5 m ρ c (Proc.devRef .tc main_arg2) : (⟨S150000, .i32⟩ : BufTy).Contents (Elt Ideal)) = (m ((c : Thread nD τ).loc main_arg2)) :=
  (by dsimp only [W5, hostOps2]; after_results_simp : W5 m ρ c (Proc.devRef .tc main_arg2) = W4 m ρ c (Proc.devRef .tc main_arg2)).trans (w4_arg2 m ρ c)
theorem w6_arg2 (c : Dev nD) : (W6 m ρ c (Proc.devRef .tc main_arg2) : (⟨S150000, .i32⟩ : BufTy).Contents (Elt Ideal)) = (m ((c : Thread nD τ).loc main_arg2)) :=
  (W6_of_ne m ρ c main_arg2 (by decide)).trans (w5_arg2 m ρ c)

end Cert.KernelIdeal.Fold

end
-- ==== Proof.Region0.lean ====
/-
  Region 0 of @main (a graph-convolution layer's dense part), from blocks to the whole array.

  The grid has 25 points; point t stages rows 6000·t … 6000·t + 5999 of the two row-tiled operands, the six
  resident operands whole, and writes back rows 6000·t … 6000·t + 5999 of the result.  The body's result at entry
  (p, q) of its block is three rectified dense stages of row p of (first operand + second operand), which is entry
  (6000·t + p, q) of `Layers.layer` of the whole arrays: a row of the layer reads the same row of its inputs and
  nothing else.  The 25 blocks tile the 150000 rows, so the array the region leaves is `Layers.layer` of the arrays it
  found.
-/
import proofs.«155467_j53996328846048_2_alg».proof.Proof.Gen.KernelIdeal.Frame
import proofs.«155467_j53996328846048_2_alg».proof.Proof.LibRowStages

set_option maxRecDepth 16384

noncomputable section

namespace Cert.KernelIdeal.Region0

open Cert.KernelIdeal Cert.KernelIdeal.Gen Cert.Layers Cert.Lib.DenseLayer
open Idealize.ShloMosaic Idealize.ShloMosaic.TcCoe Idealize.SL.Sem Idealize.ShloMosaic.ValueIdx
open Idealize.ShloMosaic.Pipeline (Dat Cfg Window)

/-- The first stage's product contracts the left factor's columns against the right factor's rows. -/
theorem isProd1 : IsMatProduct dot_S6000x32_S32x128_S6000x128_1_0_0_1_n_n := ⟨rfl, rfl, rfl, rfl, rfl, rfl⟩
/-- So do the second and third stages'. -/
theorem isProd2 : IsMatProduct dot_S6000x128_S128x128_S6000x128_1_0_0_1_n_n := ⟨rfl, rfl, rfl, rfl, rfl, rfl⟩

/-- The body's result at entry (p, q) of the block: three rectified dense stages of row p of the sum of the two
    row-tiled blocks. -/
theorem payload_entry (x0 x1 : Vec Ideal S6000x32 .bf16) (x2 : Vec Ideal S32x128 .bf16) (x3 : Vec Ideal S128 .f32)
    (x4 : Vec Ideal S128x128 .bf16) (x5 : Vec Ideal S128 .f32) (x6 : Vec Ideal S128x128 .bf16) (x7 : Vec Ideal S128 .f32)
    (p : Fin 6000) (q : Fin 128) :
    k0_pay1 x0 x1 x2 x3 x4 x5 x6 x7 (ix2 p q)
      = stage x6 x7 (stage x4 x5 (stage x2 x3 (fun k => x0 (ix2 p k) + x1 (ix2 p k)))) q := by
  unfold k0_pay1
  refine (kernel_stage isProd2 bitsLt_bf16_f32 _ x6 _ x7 _ _ p q).trans ?_
  refine congrArg (fun v => stage x6 x7 v q) (funext fun k => ?_)
  refine (kernel_stage isProd2 bitsLt_bf16_f32 _ x4 _ x5 _ _ p k).trans ?_
  refine congrArg (fun v => stage x4 x5 v k) (funext fun k' => ?_)
  refine (kernel_stage isProd1 bitsLt_bf16_f32 _ x2 _ x3 _ _ p k').trans ?_
  refine congrArg (fun v => stage x2 x3 v k') (funext fun k'' => ?_)
  show shapeCast S6000x32 x0 shapeCasts_S6000x32_S6000x32 (ix2 p k'') + shapeCast S6000x32 x1 shapeCasts_S6000x32_S6000x32 (ix2 p k'') = _
  rw [shapeCast_self, shapeCast_self]

section
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows sit at block row t, every other block index is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- A resident operand's block is the whole array. -/
theorem blk_2 (c : Dev nD) (t : Fin cfg0.N) : (iblk0 V c 2 t : S32x128.Idx → EReal) = V c main_v4 := by
  funext y
  show V c main_v4 (((cfg0.win 2).blk t).view.emb y) = V c main_v4 y
  obtain ⟨-, -, -, -, e0, e1, -⟩ := idx_facts t
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 128 + 1 * (y 1).val = (y 1).val; omega
theorem blk_3 (c : Dev nD) (t : Fin cfg0.N) : (iblk0 V c 3 t : S128.Idx → EReal) = V c main_arg4 := by
  funext y
  show V c main_arg4 (((cfg0.win 3).blk t).view.emb y) = V c main_arg4 y
  obtain ⟨-, -, -, -, -, -, e0, -⟩ := idx_facts t
  refine congrArg _ (funext fun a => Fin.ext ?_)
  match a with
  | ⟨0, _⟩ => show win0_3.index t (0 : Fin 1) * 128 + 1 * (y 0).val = (y 0).val; omega
theorem blk_4 (c : Dev nD) (t : Fin cfg0.N) : (iblk0 V c 4 t : S128x128.Idx → EReal) = V c main_v5 := by
  funext y
  show V c main_v5 (((cfg0.win 4).blk t).view.emb y) = V c main_v5 y
  obtain ⟨-, -, -, -, -, -, -, e0, e1, -⟩ := idx_facts t
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem blk_5 (c : Dev nD) (t : Fin cfg0.N) : (iblk0 V c 5 t : S128.Idx → EReal) = V c main_arg6 := by
  funext y
  show V c main_arg6 (((cfg0.win 5).blk t).view.emb y) = V c main_arg6 y
  obtain ⟨-, -, -, -, -, -, -, -, -, e0, -⟩ := idx_facts t
  refine congrArg _ (funext fun a => Fin.ext ?_)
  match a with
  | ⟨0, _⟩ => show win0_5.index t (0 : Fin 1) * 128 + 1 * (y 0).val = (y 0).val; omega
theorem blk_6 (c : Dev nD) (t : Fin cfg0.N) : (iblk0 V c 6 t : S128x128.Idx → EReal) = V c main_v6 := by
  funext y
  show V c main_v6 (((cfg0.win 6).blk t).view.emb y) = V c main_v6 y
  obtain ⟨-, -, -, -, -, -, -, -, -, -, e0, e1, -⟩ := idx_facts t
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega
theorem blk_7 (c : Dev nD) (t : Fin cfg0.N) : (iblk0 V c 7 t : S128.Idx → EReal) = V c main_arg8 := by
  funext y
  show V c main_arg8 (((cfg0.win 7).blk t).view.emb y) = V c main_arg8 y
  obtain ⟨-, -, -, -, -, -, -, -, -, -, -, -, e0, -⟩ := idx_facts t
  refine congrArg _ (funext fun a => Fin.ext ?_)
  match a with
  | ⟨0, _⟩ => show win0_7.index t (0 : Fin 1) * 128 + 1 * (y 0).val = (y 0).val; omega

/-- Entry (p, k) of a row-tiled operand's block at point t is the array's entry on the row that entry (p, q) of
    the result's block lands on. -/
theorem blk_0 (c : Dev nD) (t : Fin cfg0.N) (p : Fin 6000) (k : Fin 32) (q : Fin 128) :
    (iblk0 V c 0 t : S6000x32.Idx → EReal) (ix2 p k)
      = V c main_v16 (ix2 ((((cfg0.win 8).blk t).view.emb (ix2 p q) : S150000x128.Idx) 0) k) := by
  show V c main_v16 (((cfg0.win 0).blk t).view.emb (ix2 p k)) = _
  obtain ⟨e0, e1, -, -, -, -, -, -, -, -, -, -, -, e8, -⟩ := idx_facts t
  refine congrArg _ (funext fun a => Fin.ext ?_)
  match a with
  | ⟨0, _⟩ => show win0_0.index t (0 : Fin 2) * 6000 + 1 * p.val = win0_8.index t (0 : Fin 2) * 6000 + 1 * p.val; omega
  | ⟨1, _⟩ => show win0_0.index t (1 : Fin 2) * 32 + 1 * k.val = k.val; omega
theorem blk_1 (c : Dev nD) (t : Fin cfg0.N) (p : Fin 6000) (k : Fin 32) (q : Fin 128) :
    (iblk0 V c 1 t : S6000x32.Idx → EReal) (ix2 p k)
      = V c main_v28 (ix2 ((((cfg0.win 8).blk t).view.emb (ix2 p q) : S150000x128.Idx) 0) k) := by
  show V c main_v28 (((cfg0.win 1).blk t).view.emb (ix2 p k)) = _
  obtain ⟨-, -, e0, e1, -, -, -, -, -, -, -, -, -, e8, -⟩ := idx_facts t
  refine congrArg _ (funext fun a => Fin.ext ?_)
  match a with
  | ⟨0, _⟩ => show win0_1.index t (0 : Fin 2) * 6000 + 1 * p.val = win0_8.index t (0 : Fin 2) * 6000 + 1 * p.val; omega
  | ⟨1, _⟩ => show win0_1.index t (1 : Fin 2) * 32 + 1 * k.val = k.val; omega

/-- Entry (p, q) of the result's block lands on column q. -/
theorem col_8 (t : Fin cfg0.N) (p : Fin 6000) (q : Fin 128) :
    (((cfg0.win 8).blk t).view.emb (ix2 p q) : S150000x128.Idx) 1 = q := by
  obtain ⟨-, -, -, -, -, -, -, -, -, -, -, -, -, -, e1⟩ := idx_facts t
  refine Fin.ext ?_
  show win0_8.index t (1 : Fin 2) * 128 + 1 * q.val = q.val
  omega

/-- The layer this region computes, of the arrays it finds. -/
abbrev G (c : Dev nD) : S150000x128.Idx → EReal :=
  layer (V c main_v16) (V c main_v28) (V c main_v4) (V c main_arg4) (V c main_v5) (V c main_arg6) (V c main_v6) (V c main_arg8)

/-- What point t writes back is block t of the layer. -/
theorem flushed_eq (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  unfold out0_8
  rw [View.canon_unit_zero hz2]
  simp only [View.ld_unit_zero (S := S6000x32) hz2, View.ld_unit_zero (S := S32x128) hz2, View.ld_unit_zero (S := S128x128) hz2,
    View.ld_unit_zero (S := S128) hz1]
  funext j
  obtain ⟨p, q, rfl⟩ : ∃ (p : Fin 6000) (q : Fin 128), j = ix2 p q := ⟨j 0, j 1, eq_ix2 j⟩
  refine (payload_entry _ _ _ _ _ _ _ _ p q).trans ?_
  show _ = layer (V c main_v16) (V c main_v28) (V c main_v4) (V c main_arg4) (V c main_v5) (V c main_arg6) (V c main_v6) (V c main_arg8)
      (((cfg0.win 8).blk t).view.emb (ix2 p q))
  unfold layer
  rw [col_8 t p q, blk_2 V c t, blk_3 V c t, blk_4 V c t, blk_5 V c t, blk_6 V c t, blk_7 V c t]
  refine congrArg (fun v => stage (V c main_v6) (V c main_arg8) (stage (V c main_v5) (V c main_arg6) (stage (V c main_v4) (V c main_arg4) v)) q)
    (funext fun k => ?_)
  rw [blk_0 V c t p k q, blk_1 V c t p k q]

/-- An index of the array is in point t's block iff each coordinate is in the block's range on its axis. -/
theorem mem_blk (t : Fin cfg0.N) (i : S150000x128.Idx) :
    i ∈ ((cfg0.win 8).blk t).view.set ↔ ∀ a : Fin 2, win0_8.index t a * S6000x128.size a ≤ (i a).val
      ∧ (i a).val < win0_8.index t a * S6000x128.size a + S6000x128.size a := by
  show i ∈ ((View.whole main_v29).slice (win0_8.rect t)).set ↔ _
  rw [View.set_slice_whole, Rect.mem_set_unit]
  exact Iff.rfl

/-- Every block row is some point's. -/
theorem idx_onto : ∀ q0 : Fin 25, ∃ t : Fin cfg0.N, win0_8.index t = ![q0.val, 0] :=
  (by decide +kernel : ∀ q0 : Fin 25, ∃ t : Fin grid0.N, win0_8.index t = ![q0.val, 0])

/-- The 25 blocks tile the array: row r is in the block of the point at block row r / 6000. -/
theorem cover (i : S150000x128.Idx) :
    ∃ t : Fin cfg0.N, (cfg0.win 8).flush t = true ∧ i ∈ ((cfg0.win 8).blk t).view.set := by
  have hi0 : (i 0).val < 150000 := (i 0).isLt
  have hi1 : (i 1).val < 128 := (i 1).isLt
  obtain ⟨t, ht⟩ := idx_onto ⟨(i 0).val / 6000, by omega⟩
  have q0 : win0_8.index t (0 : Fin 2) = (i 0).val / 6000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 6000 ≤ (i 0).val ∧ (i 0).val < win0_8.index t (0 : Fin 2) * 6000 + 6000; omega
  | ⟨1, _⟩ => show win0_8.index t (1 : Fin 2) * 128 ≤ (i 1).val ∧ (i 1).val < win0_8.index t (1 : Fin 2) * 128 + 128; omega

/-- The array the region leaves is the layer of the arrays it found. -/
theorem final (c : Dev nD) : ((dat0 V c).arrAt 8 cfg0.N : S150000x128.Idx → EReal) = G V c :=
  (dat0 V c).arrAt_eq_of_cover 8 (G V c) (fun t _ => flushed_eq V c t) cover

end

end Cert.KernelIdeal.Region0

end
-- ==== Proof.Fold0.lean ====
/-
  Region 0 of the kernel's fold: it finds the features, their neighbour sums and the first layer's parameters, and leaves the first layer's output.
-/
import proofs.«155467_j53996328846048_2_alg».proof.Proof.FoldWalkA
import proofs.«155467_j53996328846048_2_alg».proof.Proof.Region0

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## Region 0 -/

theorem in0_1 (c : Dev nD) : (W1 m ρ c (Proc.devRef .tc main_v28) : S150000x32.Idx → EReal) = agg32 (m ((c : Thread nD τ).loc main_arg0)) (m ((c : Thread nD τ).loc main_arg1)) := by
  dsimp only [W1, hostOps0]
  after_results_simp
  simp only [truncf_id, extf_id]
  unfold agg32 srcCol dstCol
  rfl

theorem out0 (c : Dev nD) : (W2 m ρ c (Proc.devRef .tc main_v29) : S150000x128.Idx → EReal) = H1 m c := by
  refine (W2_arr m ρ c 8).trans ?_
  refine (Region0.final (V1 m ρ) c).trans ?_
  show layer (W1 m ρ c (Proc.devRef .tc main_v16)) (W1 m ρ c (Proc.devRef .tc main_v28)) (W1 m ρ c (Proc.devRef .tc main_v4)) (W1 m ρ c (Proc.devRef .tc main_arg4)) (W1 m ρ c (Proc.devRef .tc main_v5)) (W1 m ρ c (Proc.devRef .tc main_arg6)) (W1 m ρ c (Proc.devRef .tc main_v6)) (W1 m ρ c (Proc.devRef .tc main_arg8)) = _
  rw [w1_v16, in0_1, w1_v4, w1_arg4, w1_v5, w1_arg6, w1_v6, w1_arg8]
  rfl

end Cert.KernelIdeal.Fold

end
-- ==== Proof.FoldWalkB.lean ====
/-
  Walk-back, second group: region 1's parameters.

  A buffer that no region writes and that only the first stretch of host operations may write keeps, at every later
  segment boundary, what the first stretch left in it: a parameter array cast to the narrower format (the array
  itself, at exact arithmetic), an argument array, or a row of the edge list.
-/
import proofs.«155467_j53996328846048_2_alg».proof.Proof.FoldBase

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

theorem w1_v7 (c : Dev nD) : (W1 m ρ c (Proc.devRef .tc main_v7) : S128x128.Idx → EReal) = (m ((c : Thread nD τ).loc main_arg9)) := by
  dsimp only [W1, hostOps0]; after_results_simp <;> rfl
theorem w2_v7 (c : Dev nD) : (W2 m ρ c (Proc.devRef .tc main_v7) : S128x128.Idx → EReal) = (m ((c : Thread nD τ).loc main_arg9)) :=
  (W2_of_ne m ρ c main_v7 (by decide)).trans (w1_v7 m ρ c)
theorem w3_v7 (c : Dev nD) : (W3 m ρ c (Proc.devRef .tc main_v7) : S128x128.Idx → EReal) = (m ((c : Thread nD τ).loc main_arg9)) :=
  (by dsimp only [W3, hostOps1]; after_results_simp : W3 m ρ c (Proc.devRef .tc main_v7) = W2 m ρ c (Proc.devRef .tc main_v7)).trans (w2_v7 m ρ c)

theorem w1_arg10 (c : Dev nD) : (W1 m ρ c (Proc.devRef .tc main_arg10) : S128.Idx → EReal) = (m ((c : Thread nD τ).loc main_arg10)) := by
  dsimp only [W1, hostOps0]; after_results_simp <;> rfl
theorem w2_arg10 (c : Dev nD) : (W2 m ρ c (Proc.devRef .tc main_arg10) : S128.Idx → EReal) = (m ((c : Thread nD τ).loc main_arg10)) :=
  (W2_of_ne m ρ c main_arg10 (by decide)).trans (w1_arg10 m ρ c)
theorem w3_arg10 (c : Dev nD) : (W3 m ρ c (Proc.devRef .tc main_arg10) : S128.Idx → EReal) = (m ((c : Thread nD τ).loc main_arg10)) :=
  (by dsimp only [W3, hostOps1]; after_results_simp : W3 m ρ c (Proc.devRef .tc main_arg10) = W2 m ρ c (Proc.devRef .tc main_arg10)).trans (w2_arg10 m ρ c)

theorem w1_v8 (c : Dev nD) : (W1 m ρ c (Proc.devRef .tc main_v8) : S128x128.Idx → EReal) = (m ((c : Thread nD τ).loc main_arg11)) := by
  dsimp only [W1, hostOps0]; after_results_simp <;> rfl
theorem w2_v8 (c : Dev nD) : (W2 m ρ c (Proc.devRef .tc main_v8) : S128x128.Idx → EReal) = (m ((c : Thread nD τ).loc main_arg11)) :=
  (W2_of_ne m ρ c main_v8 (by decide)).trans (w1_v8 m ρ c)
theorem w3_v8 (c : Dev nD) : (W3 m ρ c (Proc.devRef .tc main_v8) : S128x128.Idx → EReal) = (m ((c : Thread nD τ).loc main_arg11)) :=
  (by dsimp only [W3, hostOps1]; after_results_simp : W3 m ρ c (Proc.devRef .tc main_v8) = W2 m ρ c (Proc.devRef .tc main_v8)).trans (w2_v8 m ρ c)

theorem w1_arg12 (c : Dev nD) : (W1 m ρ c (Proc.devRef .tc main_arg12) : S128.Idx → EReal) = (m ((c : Thread nD τ).loc main_arg12)) := by
  dsimp only [W1, hostOps0]; after_results_simp <;> rfl
theorem w2_arg12 (c : Dev nD) : (W2 m ρ c (Proc.devRef .tc main_arg12) : S128.Idx → EReal) = (m ((c : Thread nD τ).loc main_arg12)) :=
  (W2_of_ne m ρ c main_arg12 (by decide)).trans (w1_arg12 m ρ c)
theorem w3_arg12 (c : Dev nD) : (W3 m ρ c (Proc.devRef .tc main_arg12) : S128.Idx → EReal) = (m ((c : Thread nD τ).loc main_arg12)) :=
  (by dsimp only [W3, hostOps1]; after_results_simp : W3 m ρ c (Proc.devRef .tc main_arg12) = W2 m ρ c (Proc.devRef .tc main_arg12)).trans (w2_arg12 m ρ c)

theorem w1_v9 (c : Dev nD) : (W1 m ρ c (Proc.devRef .tc main_v9) : S128x128.Idx → EReal) = (m ((c : Thread nD τ).loc main_arg13)) := by
  dsimp only [W1, hostOps0]; after_results_simp <;> rfl
theorem w2_v9 (c : Dev nD) : (W2 m ρ c (Proc.devRef .tc main_v9) : S128x128.Idx → EReal) = (m ((c : Thread nD τ).loc main_arg13)) :=
  (W2_of_ne m ρ c main_v9 (by decide)).trans (w1_v9 m ρ c)
theorem w3_v9 (c : Dev nD) : (W3 m ρ c (Proc.devRef .tc main_v9) : S128x128.Idx → EReal) = (m ((c : Thread nD τ).loc main_arg13)) :=
  (by dsimp only [W3, hostOps1]; after_results_simp : W3 m ρ c (Proc.devRef .tc main_v9) = W2 m ρ c (Proc.devRef .tc main_v9)).trans (w2_v9 m ρ c)

theorem w1_arg14 (c : Dev nD) : (W1 m ρ c (Proc.devRef .tc main_arg14) : S128.Idx → EReal) = (m ((c : Thread nD τ).loc main_arg14)) := by
  dsimp only [W1, hostOps0]; after_results_simp <;> rfl
theorem w2_arg14 (c : Dev nD) : (W2 m ρ c (Proc.devRef .tc main_arg14) : S128.Idx → EReal) = (m ((c : Thread nD τ).loc main_arg14)) :=
  (W2_of_ne m ρ c main_arg14 (by decide)).trans (w1_arg14 m ρ c)
theorem w3_arg14 (c : Dev nD) : (W3 m ρ c (Proc.devRef .tc main_arg14) : S128.Idx → EReal) = (m ((c : Thread nD τ).loc main_arg14)) :=
  (by dsimp only [W3, hostOps1]; after_results_simp : W3 m ρ c (Proc.devRef .tc main_arg14) = W2 m ρ c (Proc.devRef .tc main_arg14)).trans (w2_arg14 m ρ c)

end Cert.KernelIdeal.Fold

end
-- ==== Proof.Region1.lean ====
/-
  Region 1 of @main (a graph-convolution layer's dense part), from blocks to the whole array.

  The grid has 25 points; point t stages rows 6000·t … 6000·t + 5999 of the two row-tiled operands, the six
  resident operands whole, and writes back rows 6000·t … 6000·t + 5999 of the result.  The body's result at entry
  (p, q) of its block is three rectified dense stages of row p of (first operand + second operand), which is entry
  (6000·t + p, q) of `Layers.layer` of the whole arrays: a row of the layer reads the same row of its inputs and
  nothing else.  The 25 blocks tile the 150000 rows, so the array the region leaves is `Layers.layer` of the arrays it
  found.
-/
import proofs.«155467_j53996328846048_2_alg».proof.Proof.Gen.KernelIdeal.Frame
import proofs.«155467_j53996328846048_2_alg».proof.Proof.LibRowStages

set_option maxRecDepth 16384

noncomputable section

namespace Cert.KernelIdeal.Region1

open Cert.KernelIdeal Cert.KernelIdeal.Gen Cert.Layers Cert.Lib.DenseLayer
open Idealize.ShloMosaic Idealize.ShloMosaic.TcCoe Idealize.SL.Sem Idealize.ShloMosaic.ValueIdx
open Idealize.ShloMosaic.Pipeline (Dat Cfg Window)

/-- The first stage's product contracts the left factor's columns against the right factor's rows. -/
theorem isProd1 : IsMatProduct dot_S6000x128_S128x128_S6000x128_1_0_0_1_n_n := ⟨rfl, rfl, rfl, rfl, rfl, rfl⟩
/-- So do the second and third stages'. -/
theorem isProd2 : IsMatProduct dot_S6000x128_S128x128_S6000x128_1_0_0_1_n_n := ⟨rfl, rfl, rfl, rfl, rfl, rfl⟩

/-- The body's result at entry (p, q) of the block: three rectified dense stages of row p of the sum of the two
    row-tiled blocks. -/
theorem payload_entry (x0 x1 : Vec Ideal S6000x128 .bf16) (x2 : Vec Ideal S128x128 .bf16) (x3 : Vec Ideal S128 .f32)
    (x4 : Vec Ideal S128x128 .bf16) (x5 : Vec Ideal S128 .f32) (x6 : Vec Ideal S128x128 .bf16) (x7 : Vec Ideal S128 .f32)
    (p : Fin 6000) (q : Fin 128) :
    k1_pay1 x0 x1 x2 x3 x4 x5 x6 x7 (ix2 p q)
      = stage x6 x7 (stage x4 x5 (stage x2 x3 (fun k => x0 (ix2 p k) + x1 (ix2 p k)))) q := by
  unfold k1_pay1
  refine (kernel_stage isProd2 bitsLt_bf16_f32 _ x6 _ x7 _ _ p q).trans ?_
  refine congrArg (fun v => stage x6 x7 v q) (funext fun k => ?_)
  refine (kernel_stage isProd2 bitsLt_bf16_f32 _ x4 _ x5 _ _ p k).trans ?_
  refine congrArg (fun v => stage x4 x5 v k) (funext fun k' => ?_)
  refine (kernel_stage isProd1 bitsLt_bf16_f32 _ x2 _ x3 _ _ p k').trans ?_
  refine congrArg (fun v => stage x2 x3 v k') (funext fun k'' => ?_)
  show shapeCast S6000x128 x0 shapeCasts_S6000x128_S6000x128 (ix2 p k'') + shapeCast S6000x128 x1 shapeCasts_S6000x128_S6000x128 (ix2 p k'') = _
  rw [shapeCast_self, shapeCast_self]

section
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows sit at block row t, every other block index is 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- A resident operand's block is the whole array. -/
theorem blk_2 (c : Dev nD) (t : Fin cfg1.N) : (iblk1 V c 2 t : S128x128.Idx → EReal) = V c main_v7 := by
  funext y
  show V c main_v7 (((cfg1.win 2).blk t).view.emb y) = V c main_v7 y
  obtain ⟨-, -, -, -, e0, e1, -⟩ := idx_facts t
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem blk_3 (c : Dev nD) (t : Fin cfg1.N) : (iblk1 V c 3 t : S128.Idx → EReal) = V c main_arg10 := by
  funext y
  show V c main_arg10 (((cfg1.win 3).blk t).view.emb y) = V c main_arg10 y
  obtain ⟨-, -, -, -, -, -, e0, -⟩ := idx_facts t
  refine congrArg _ (funext fun a => Fin.ext ?_)
  match a with
  | ⟨0, _⟩ => show win1_3.index t (0 : Fin 1) * 128 + 1 * (y 0).val = (y 0).val; omega
theorem blk_4 (c : Dev nD) (t : Fin cfg1.N) : (iblk1 V c 4 t : S128x128.Idx → EReal) = V c main_v8 := by
  funext y
  show V c main_v8 (((cfg1.win 4).blk t).view.emb y) = V c main_v8 y
  obtain ⟨-, -, -, -, -, -, -, e0, e1, -⟩ := idx_facts t
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega
theorem blk_5 (c : Dev nD) (t : Fin cfg1.N) : (iblk1 V c 5 t : S128.Idx → EReal) = V c main_arg12 := by
  funext y
  show V c main_arg12 (((cfg1.win 5).blk t).view.emb y) = V c main_arg12 y
  obtain ⟨-, -, -, -, -, -, -, -, -, e0, -⟩ := idx_facts t
  refine congrArg _ (funext fun a => Fin.ext ?_)
  match a with
  | ⟨0, _⟩ => show win1_5.index t (0 : Fin 1) * 128 + 1 * (y 0).val = (y 0).val; omega
theorem blk_6 (c : Dev nD) (t : Fin cfg1.N) : (iblk1 V c 6 t : S128x128.Idx → EReal) = V c main_v9 := by
  funext y
  show V c main_v9 (((cfg1.win 6).blk t).view.emb y) = V c main_v9 y
  obtain ⟨-, -, -, -, -, -, -, -, -, -, e0, e1, -⟩ := idx_facts t
  refine congrArg _ (funext fun a => Fin.ext ?_)
  match a with
  | ⟨0, _⟩ => show win1_6.index t (0 : Fin 2) * 128 + 1 * (y 0).val = (y 0).val; omega
  | ⟨1, _⟩ => show win1_6.index t (1 : Fin 2) * 128 + 1 * (y 1).val = (y 1).val; omega
theorem blk_7 (c : Dev nD) (t : Fin cfg1.N) : (iblk1 V c 7 t : S128.Idx → EReal) = V c main_arg14 := by
  funext y
  show V c main_arg14 (((cfg1.win 7).blk t).view.emb y) = V c main_arg14 y
  obtain ⟨-, -, -, -, -, -, -, -, -, -, -, -, e0, -⟩ := idx_facts t
  refine congrArg _ (funext fun a => Fin.ext ?_)
  match a with
  | ⟨0, _⟩ => show win1_7.index t (0 : Fin 1) * 128 + 1 * (y 0).val = (y 0).val; omega

/-- Entry (p, k) of a row-tiled operand's block at point t is the array's entry on the row that entry (p, q) of
    the result's block lands on. -/
theorem blk_0 (c : Dev nD) (t : Fin cfg1.N) (p : Fin 6000) (k : Fin 128) (q : Fin 128) :
    (iblk1 V c 0 t : S6000x128.Idx → EReal) (ix2 p k)
      = V c main_v29 (ix2 ((((cfg1.win 8).blk t).view.emb (ix2 p q) : S150000x128.Idx) 0) k) := by
  show V c main_v29 (((cfg1.win 0).blk t).view.emb (ix2 p k)) = _
  obtain ⟨e0, e1, -, -, -, -, -, -, -, -, -, -, -, e8, -⟩ := idx_facts t
  refine congrArg _ (funext fun a => Fin.ext ?_)
  match a with
  | ⟨0, _⟩ => show win1_0.index t (0 : Fin 2) * 6000 + 1 * p.val = win1_8.index t (0 : Fin 2) * 6000 + 1 * p.val; omega
  | ⟨1, _⟩ => show win1_0.index t (1 : Fin 2) * 128 + 1 * k.val = k.val; omega
theorem blk_1 (c : Dev nD) (t : Fin cfg1.N) (p : Fin 6000) (k : Fin 128) (q : Fin 128) :
    (iblk1 V c 1 t : S6000x128.Idx → EReal) (ix2 p k)
      = V c main_v41 (ix2 ((((cfg1.win 8).blk t).view.emb (ix2 p q) : S150000x128.Idx) 0) k) := by
  show V c main_v41 (((cfg1.win 1).blk t).view.emb (ix2 p k)) = _
  obtain ⟨-, -, e0, e1, -, -, -, -, -, -, -, -, -, e8, -⟩ := idx_facts t
  refine congrArg _ (funext fun a => Fin.ext ?_)
  match a with
  | ⟨0, _⟩ => show win1_1.index t (0 : Fin 2) * 6000 + 1 * p.val = win1_8.index t (0 : Fin 2) * 6000 + 1 * p.val; omega
  | ⟨1, _⟩ => show win1_1.index t (1 : Fin 2) * 128 + 1 * k.val = k.val; omega

/-- Entry (p, q) of the result's block lands on column q. -/
theorem col_8 (t : Fin cfg1.N) (p : Fin 6000) (q : Fin 128) :
    (((cfg1.win 8).blk t).view.emb (ix2 p q) : S150000x128.Idx) 1 = q := by
  obtain ⟨-, -, -, -, -, -, -, -, -, -, -, -, -, -, e1⟩ := idx_facts t
  refine Fin.ext ?_
  show win1_8.index t (1 : Fin 2) * 128 + 1 * q.val = q.val
  omega

/-- The layer this region computes, of the arrays it finds. -/
abbrev G (c : Dev nD) : S150000x128.Idx → EReal :=
  layer (V c main_v29) (V c main_v41) (V c main_v7) (V c main_arg10) (V c main_v8) (V c main_arg12) (V c main_v9) (V c main_arg14)

/-- What point t writes back is block t of the layer. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz2]
  simp only [View.ld_unit_zero (S := S6000x128) hz2, View.ld_unit_zero (S := S128x128) hz2, View.ld_unit_zero (S := S128x128) hz2,
    View.ld_unit_zero (S := S128) hz1]
  funext j
  obtain ⟨p, q, rfl⟩ : ∃ (p : Fin 6000) (q : Fin 128), j = ix2 p q := ⟨j 0, j 1, eq_ix2 j⟩
  refine (payload_entry _ _ _ _ _ _ _ _ p q).trans ?_
  show _ = layer (V c main_v29) (V c main_v41) (V c main_v7) (V c main_arg10) (V c main_v8) (V c main_arg12) (V c main_v9) (V c main_arg14)
      (((cfg1.win 8).blk t).view.emb (ix2 p q))
  unfold layer
  rw [col_8 t p q, blk_2 V c t, blk_3 V c t, blk_4 V c t, blk_5 V c t, blk_6 V c t, blk_7 V c t]
  refine congrArg (fun v => stage (V c main_v9) (V c main_arg14) (stage (V c main_v8) (V c main_arg12) (stage (V c main_v7) (V c main_arg10) v)) q)
    (funext fun k => ?_)
  rw [blk_0 V c t p k q, blk_1 V c t p k q]

/-- An index of the array is in point t's block iff each coordinate is in the block's range on its axis. -/
theorem mem_blk (t : Fin cfg1.N) (i : S150000x128.Idx) :
    i ∈ ((cfg1.win 8).blk t).view.set ↔ ∀ a : Fin 2, win1_8.index t a * S6000x128.size a ≤ (i a).val
      ∧ (i a).val < win1_8.index t a * S6000x128.size a + S6000x128.size a := by
  show i ∈ ((View.whole main_v42).slice (win1_8.rect t)).set ↔ _
  rw [View.set_slice_whole, Rect.mem_set_unit]
  exact Iff.rfl

/-- Every block row is some point's. -/
theorem idx_onto : ∀ q0 : Fin 25, ∃ t : Fin cfg1.N, win1_8.index t = ![q0.val, 0] :=
  (by decide +kernel : ∀ q0 : Fin 25, ∃ t : Fin grid1.N, win1_8.index t = ![q0.val, 0])

/-- The 25 blocks tile the array: row r is in the block of the point at block row r / 6000. -/
theorem cover (i : S150000x128.Idx) :
    ∃ t : Fin cfg1.N, (cfg1.win 8).flush t = true ∧ i ∈ ((cfg1.win 8).blk t).view.set := by
  have hi0 : (i 0).val < 150000 := (i 0).isLt
  have hi1 : (i 1).val < 128 := (i 1).isLt
  obtain ⟨t, ht⟩ := idx_onto ⟨(i 0).val / 6000, by omega⟩
  have q0 : win1_8.index t (0 : Fin 2) = (i 0).val / 6000 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 6000 ≤ (i 0).val ∧ (i 0).val < win1_8.index t (0 : Fin 2) * 6000 + 6000; omega
  | ⟨1, _⟩ => show win1_8.index t (1 : Fin 2) * 128 ≤ (i 1).val ∧ (i 1).val < win1_8.index t (1 : Fin 2) * 128 + 128; omega

/-- The array the region leaves is the layer of the arrays it found. -/
theorem final (c : Dev nD) : ((dat1 V c).arrAt 8 cfg1.N : S150000x128.Idx → EReal) = G V c :=
  (dat1 V c).arrAt_eq_of_cover 8 (G V c) (fun t _ => flushed_eq V c t) cover

end

end Cert.KernelIdeal.Region1

end
-- ==== Proof.Fold1.lean ====
/-
  Region 1 of the kernel's fold: it finds the first layer's output, its neighbour sums and the second layer's parameters, and leaves the second layer's output.
-/
import proofs.«155467_j53996328846048_2_alg».proof.Proof.Fold0
import proofs.«155467_j53996328846048_2_alg».proof.Proof.FoldWalkB
import proofs.«155467_j53996328846048_2_alg».proof.Proof.Region1

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## Region 1 -/

theorem in1_0 (c : Dev nD) : (W3 m ρ c (Proc.devRef .tc main_v29) : S150000x128.Idx → EReal) = H1 m c :=
  (by dsimp only [W3, hostOps1]; after_results_simp : W3 m ρ c (Proc.devRef .tc main_v29) = W2 m ρ c (Proc.devRef .tc main_v29)).trans (out0 m ρ c)

theorem in1_1 (c : Dev nD) : (W3 m ρ c (Proc.devRef .tc main_v41) : S150000x128.Idx → EReal) = agg128 (H1 m c) (m ((c : Thread nD τ).loc main_arg1)) := by
  dsimp only [W3, hostOps1]
  after_results_simp
  simp only [truncf_id, extf_id]
  rw [w2_v1 m ρ c, w2_v3 m ρ c, out0 m ρ c]
  unfold agg128 srcCol dstCol
  rfl

theorem out1 (c : Dev nD) : (W4 m ρ c (Proc.devRef .tc main_v42) : S150000x128.Idx → EReal) = H2 m c := by
  refine (W4_arr m ρ c 8).trans ?_
  refine (Region1.final (V3 m ρ) c).trans ?_
  show layer (W3 m ρ c (Proc.devRef .tc main_v29)) (W3 m ρ c (Proc.devRef .tc main_v41)) (W3 m ρ c (Proc.devRef .tc main_v7)) (W3 m ρ c (Proc.devRef .tc main_arg10)) (W3 m ρ c (Proc.devRef .tc main_v8)) (W3 m ρ c (Proc.devRef .tc main_arg12)) (W3 m ρ c (Proc.devRef .tc main_v9)) (W3 m ρ c (Proc.devRef .tc main_arg14)) = _
  rw [in1_0, in1_1, w3_v7, w3_arg10, w3_v8, w3_arg12, w3_v9, w3_arg14]
  rfl

end Cert.KernelIdeal.Fold

end
-- ==== Proof.FoldWalkC.lean ====
/-
  Walk-back, third group: region 2's parameters.

  A buffer that no region writes and that only the first stretch of host operations may write keeps, at every later
  segment boundary, what the first stretch left in it: a parameter array cast to the narrower format (the array
  itself, at exact arithmetic), an argument array, or a row of the edge list.
-/
import proofs.«155467_j53996328846048_2_alg».proof.Proof.FoldBase

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

theorem w1_v10 (c : Dev nD) : (W1 m ρ c (Proc.devRef .tc main_v10) : S128x128.Idx → EReal) = (m ((c : Thread nD τ).loc main_arg15)) := by
  dsimp only [W1, hostOps0]; after_results_simp <;> rfl
theorem w2_v10 (c : Dev nD) : (W2 m ρ c (Proc.devRef .tc main_v10) : S128x128.Idx → EReal) = (m ((c : Thread nD τ).loc main_arg15)) :=
  (W2_of_ne m ρ c main_v10 (by decide)).trans (w1_v10 m ρ c)
theorem w3_v10 (c : Dev nD) : (W3 m ρ c (Proc.devRef .tc main_v10) : S128x128.Idx → EReal) = (m ((c : Thread nD τ).loc main_arg15)) :=
  (by dsimp only [W3, hostOps1]; after_results_simp : W3 m ρ c (Proc.devRef .tc main_v10) = W2 m ρ c (Proc.devRef .tc main_v10)).trans (w2_v10 m ρ c)
theorem w4_v10 (c : Dev nD) : (W4 m ρ c (Proc.devRef .tc main_v10) : S128x128.Idx → EReal) = (m ((c : Thread nD τ).loc main_arg15)) :=
  (W4_of_ne m ρ c main_v10 (by decide)).trans (w3_v10 m ρ c)
theorem w5_v10 (c : Dev nD) : (W5 m ρ c (Proc.devRef .tc main_v10) : S128x128.Idx → EReal) = (m ((c : Thread nD τ).loc main_arg15)) :=
  (by dsimp only [W5, hostOps2]; after_results_simp : W5 m ρ c (Proc.devRef .tc main_v10) = W4 m ρ c (Proc.devRef .tc main_v10)).trans (w4_v10 m ρ c)

theorem w1_arg16 (c : Dev nD) : (W1 m ρ c (Proc.devRef .tc main_arg16) : S128.Idx → EReal) = (m ((c : Thread nD τ).loc main_arg16)) := by
  dsimp only [W1, hostOps0]; after_results_simp <;> rfl
theorem w2_arg16 (c : Dev nD) : (W2 m ρ c (Proc.devRef .tc main_arg16) : S128.Idx → EReal) = (m ((c : Thread nD τ).loc main_arg16)) :=
  (W2_of_ne m ρ c main_arg16 (by decide)).trans (w1_arg16 m ρ c)
theorem w3_arg16 (c : Dev nD) : (W3 m ρ c (Proc.devRef .tc main_arg16) : S128.Idx → EReal) = (m ((c : Thread nD τ).loc main_arg16)) :=
  (by dsimp only [W3, hostOps1]; after_results_simp : W3 m ρ c (Proc.devRef .tc main_arg16) = W2 m ρ c (Proc.devRef .tc main_arg16)).trans (w2_arg16 m ρ c)
theorem w4_arg16 (c : Dev nD) : (W4 m ρ c (Proc.devRef .tc main_arg16) : S128.Idx → EReal) = (m ((c : Thread nD τ).loc main_arg16)) :=
  (W4_of_ne m ρ c main_arg16 (by decide)).trans (w3_arg16 m ρ c)
theorem w5_arg16 (c : Dev nD) : (W5 m ρ c (Proc.devRef .tc main_arg16) : S128.Idx → EReal) = (m ((c : Thread nD τ).loc main_arg16)) :=
  (by dsimp only [W5, hostOps2]; after_results_simp : W5 m ρ c (Proc.devRef .tc main_arg16) = W4 m ρ c (Proc.devRef .tc main_arg16)).trans (w4_arg16 m ρ c)

theorem w1_v11 (c : Dev nD) : (W1 m ρ c (Proc.devRef .tc main_v11) : S128x128.Idx → EReal) = (m ((c : Thread nD τ).loc main_arg17)) := by
  dsimp only [W1, hostOps0]; after_results_simp <;> rfl
theorem w2_v11 (c : Dev nD) : (W2 m ρ c (Proc.devRef .tc main_v11) : S128x128.Idx → EReal) = (m ((c : Thread nD τ).loc main_arg17)) :=
  (W2_of_ne m ρ c main_v11 (by decide)).trans (w1_v11 m ρ c)
theorem w3_v11 (c : Dev nD) : (W3 m ρ c (Proc.devRef .tc main_v11) : S128x128.Idx → EReal) = (m ((c : Thread nD τ).loc main_arg17)) :=
  (by dsimp only [W3, hostOps1]; after_results_simp : W3 m ρ c (Proc.devRef .tc main_v11) = W2 m ρ c (Proc.devRef .tc main_v11)).trans (w2_v11 m ρ c)
theorem w4_v11 (c : Dev nD) : (W4 m ρ c (Proc.devRef .tc main_v11) : S128x128.Idx → EReal) = (m ((c : Thread nD τ).loc main_arg17)) :=
  (W4_of_ne m ρ c main_v11 (by decide)).trans (w3_v11 m ρ c)
theorem w5_v11 (c : Dev nD) : (W5 m ρ c (Proc.devRef .tc main_v11) : S128x128.Idx → EReal) = (m ((c : Thread nD τ).loc main_arg17)) :=
  (by dsimp only [W5, hostOps2]; after_results_simp : W5 m ρ c (Proc.devRef .tc main_v11) = W4 m ρ c (Proc.devRef .tc main_v11)).trans (w4_v11 m ρ c)

theorem w1_arg18 (c : Dev nD) : (W1 m ρ c (Proc.devRef .tc main_arg18) : S128.Idx → EReal) = (m ((c : Thread nD τ).loc main_arg18)) := by
  dsimp only [W1, hostOps0]; after_results_simp <;> rfl
theorem w2_arg18 (c : Dev nD) : (W2 m ρ c (Proc.devRef .tc main_arg18) : S128.Idx → EReal) = (m ((c : Thread nD τ).loc main_arg18)) :=
  (W2_of_ne m ρ c main_arg18 (by decide)).trans (w1_arg18 m ρ c)
theorem w3_arg18 (c : Dev nD) : (W3 m ρ c (Proc.devRef .tc main_arg18) : S128.Idx → EReal) = (m ((c : Thread nD τ).loc main_arg18)) :=
  (by dsimp only [W3, hostOps1]; after_results_simp : W3 m ρ c (Proc.devRef .tc main_arg18) = W2 m ρ c (Proc.devRef .tc main_arg18)).trans (w2_arg18 m ρ c)
theorem w4_arg18 (c : Dev nD) : (W4 m ρ c (Proc.devRef .tc main_arg18) : S128.Idx → EReal) = (m ((c : Thread nD τ).loc main_arg18)) :=
  (W4_of_ne m ρ c main_arg18 (by decide)).trans (w3_arg18 m ρ c)
theorem w5_arg18 (c : Dev nD) : (W5 m ρ c (Proc.devRef .tc main_arg18) : S128.Idx → EReal) = (m ((c : Thread nD τ).loc main_arg18)) :=
  (by dsimp only [W5, hostOps2]; after_results_simp : W5 m ρ c (Proc.devRef .tc main_arg18) = W4 m ρ c (Proc.devRef .tc main_arg18)).trans (w4_arg18 m ρ c)

theorem w1_v12 (c : Dev nD) : (W1 m ρ c (Proc.devRef .tc main_v12) : S128x128.Idx → EReal) = (m ((c : Thread nD τ).loc main_arg19)) := by
  dsimp only [W1, hostOps0]; after_results_simp <;> rfl
theorem w2_v12 (c : Dev nD) : (W2 m ρ c (Proc.devRef .tc main_v12) : S128x128.Idx → EReal) = (m ((c : Thread nD τ).loc main_arg19)) :=
  (W2_of_ne m ρ c main_v12 (by decide)).trans (w1_v12 m ρ c)
theorem w3_v12 (c : Dev nD) : (W3 m ρ c (Proc.devRef .tc main_v12) : S128x128.Idx → EReal) = (m ((c : Thread nD τ).loc main_arg19)) :=
  (by dsimp only [W3, hostOps1]; after_results_simp : W3 m ρ c (Proc.devRef .tc main_v12) = W2 m ρ c (Proc.devRef .tc main_v12)).trans (w2_v12 m ρ c)
theorem w4_v12 (c : Dev nD) : (W4 m ρ c (Proc.devRef .tc main_v12) : S128x128.Idx → EReal) = (m ((c : Thread nD τ).loc main_arg19)) :=
  (W4_of_ne m ρ c main_v12 (by decide)).trans (w3_v12 m ρ c)
theorem w5_v12 (c : Dev nD) : (W5 m ρ c (Proc.devRef .tc main_v12) : S128x128.Idx → EReal) = (m ((c : Thread nD τ).loc main_arg19)) :=
  (by dsimp only [W5, hostOps2]; after_results_simp : W5 m ρ c (Proc.devRef .tc main_v12) = W4 m ρ c (Proc.devRef .tc main_v12)).trans (w4_v12 m ρ c)

theorem w1_arg20 (c : Dev nD) : (W1 m ρ c (Proc.devRef .tc main_arg20) : S128.Idx → EReal) = (m ((c : Thread nD τ).loc main_arg20)) := by
  dsimp only [W1, hostOps0]; after_results_simp <;> rfl
theorem w2_arg20 (c : Dev nD) : (W2 m ρ c (Proc.devRef .tc main_arg20) : S128.Idx → EReal) = (m ((c : Thread nD τ).loc main_arg20)) :=
  (W2_of_ne m ρ c main_arg20 (by decide)).trans (w1_arg20 m ρ c)
theorem w3_arg20 (c : Dev nD) : (W3 m ρ c (Proc.devRef .tc main_arg20) : S128.Idx → EReal) = (m ((c : Thread nD τ).loc main_arg20)) :=
  (by dsimp only [W3, hostOps1]; after_results_simp : W3 m ρ c (Proc.devRef .tc main_arg20) = W2 m ρ c (Proc.devRef .tc main_arg20)).trans (w2_arg20 m ρ c)
theorem w4_arg20 (c : Dev nD) : (W4 m ρ c (Proc.devRef .tc main_arg20) : S128.Idx → EReal) = (m ((c : Thread nD τ).loc main_arg20)) :=
  (W4_of_ne m ρ c main_arg20 (by decide)).trans (w3_arg20 m ρ c)
theorem w5_arg20 (c : Dev nD) : (W5 m ρ c (Proc.devRef .tc main_arg20) : S128.Idx → EReal) = (m ((c : Thread nD τ).loc main_arg20)) :=
  (by dsimp only [W5, hostOps2]; after_results_simp : W5 m ρ c (Proc.devRef .tc main_arg20) = W4 m ρ c (Proc.devRef .tc main_arg20)).trans (w4_arg20 m ρ c)

end Cert.KernelIdeal.Fold

end
-- ==== Proof.Region2.lean ====
/-
  Region 2 of @main (a graph-convolution layer's dense part), from blocks to the whole array.

  The grid has 25 points; point t stages rows 6000·t … 6000·t + 5999 of the two row-tiled operands, the six
  resident operands whole, and writes back rows 6000·t … 6000·t + 5999 of the result.  The body's result at entry
  (p, q) of its block is three rectified dense stages of row p of (first operand + second operand), which is entry
  (6000·t + p, q) of `Layers.layer` of the whole arrays: a row of the layer reads the same row of its inputs and
  nothing else.  The 25 blocks tile the 150000 rows, so the array the region leaves is `Layers.layer` of the arrays it
  found.
-/
import proofs.«155467_j53996328846048_2_alg».proof.Proof.Gen.KernelIdeal.Frame
import proofs.«155467_j53996328846048_2_alg».proof.Proof.LibRowStages

set_option maxRecDepth 16384

noncomputable section

namespace Cert.KernelIdeal.Region2

open Cert.KernelIdeal Cert.KernelIdeal.Gen Cert.Layers Cert.Lib.DenseLayer
open Idealize.ShloMosaic Idealize.ShloMosaic.TcCoe Idealize.SL.Sem Idealize.ShloMosaic.ValueIdx
open Idealize.ShloMosaic.Pipeline (Dat Cfg Window)

/-- The first stage's product contracts the left factor's columns against the right factor's rows. -/
theorem isProd1 : IsMatProduct dot_S6000x128_S128x128_S6000x128_1_0_0_1_n_n := ⟨rfl, rfl, rfl, rfl, rfl, rfl⟩
/-- So do the second and third stages'. -/
theorem isProd2 : IsMatProduct dot_S6000x128_S128x128_S6000x128_1_0_0_1_n_n := ⟨rfl, rfl, rfl, rfl, rfl, rfl⟩

/-- The body's result at entry (p, q) of the block: three rectified dense stages of row p of the sum of the two
    row-tiled blocks. -/
theorem payload_entry (x0 x1 : Vec Ideal S6000x128 .bf16) (x2 : Vec Ideal S128x128 .bf16) (x3 : Vec Ideal S128 .f32)
    (x4 : Vec Ideal S128x128 .bf16) (x5 : Vec Ideal S128 .f32) (x6 : Vec Ideal S128x128 .bf16) (x7 : Vec Ideal S128 .f32)
    (p : Fin 6000) (q : Fin 128) :
    k2_pay1 x0 x1 x2 x3 x4 x5 x6 x7 (ix2 p q)
      = stage x6 x7 (stage x4 x5 (stage x2 x3 (fun k => x0 (ix2 p k) + x1 (ix2 p k)))) q := by
  unfold k2_pay1
  refine (kernel_stage isProd2 bitsLt_bf16_f32 _ x6 _ x7 _ _ p q).trans ?_
  refine congrArg (fun v => stage x6 x7 v q) (funext fun k => ?_)
  refine (kernel_stage isProd2 bitsLt_bf16_f32 _ x4 _ x5 _ _ p k).trans ?_
  refine congrArg (fun v => stage x4 x5 v k) (funext fun k' => ?_)
  refine (kernel_stage isProd1 bitsLt_bf16_f32 _ x2 _ x3 _ _ p k').trans ?_
  refine congrArg (fun v => stage x2 x3 v k') (funext fun k'' => ?_)
  show shapeCast S6000x128 x0 shapeCasts_S6000x128_S6000x128 (ix2 p k'') + shapeCast S6000x128 x1 shapeCasts_S6000x128_S6000x128 (ix2 p k'') = _
  rw [shapeCast_self, shapeCast_self]

section
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the row-tiled windows sit at block row t, every other block index is 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- A resident operand's block is the whole array. -/
theorem blk_2 (c : Dev nD) (t : Fin cfg2.N) : (iblk2 V c 2 t : S128x128.Idx → EReal) = V c main_v10 := by
  funext y
  show V c main_v10 (((cfg2.win 2).blk t).view.emb y) = V c main_v10 y
  obtain ⟨-, -, -, -, e0, e1, -⟩ := idx_facts t
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega
theorem blk_3 (c : Dev nD) (t : Fin cfg2.N) : (iblk2 V c 3 t : S128.Idx → EReal) = V c main_arg16 := by
  funext y
  show V c main_arg16 (((cfg2.win 3).blk t).view.emb y) = V c main_arg16 y
  obtain ⟨-, -, -, -, -, -, e0, -⟩ := idx_facts t
  refine congrArg _ (funext fun a => Fin.ext ?_)
  match a with
  | ⟨0, _⟩ => show win2_3.index t (0 : Fin 1) * 128 + 1 * (y 0).val = (y 0).val; omega
theorem blk_4 (c : Dev nD) (t : Fin cfg2.N) : (iblk2 V c 4 t : S128x128.Idx → EReal) = V c main_v11 := by
  funext y
  show V c main_v11 (((cfg2.win 4).blk t).view.emb y) = V c main_v11 y
  obtain ⟨-, -, -, -, -, -, -, e0, e1, -⟩ := idx_facts t
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega
theorem blk_5 (c : Dev nD) (t : Fin cfg2.N) : (iblk2 V c 5 t : S128.Idx → EReal) = V c main_arg18 := by
  funext y
  show V c main_arg18 (((cfg2.win 5).blk t).view.emb y) = V c main_arg18 y
  obtain ⟨-, -, -, -, -, -, -, -, -, e0, -⟩ := idx_facts t
  refine congrArg _ (funext fun a => Fin.ext ?_)
  match a with
  | ⟨0, _⟩ => show win2_5.index t (0 : Fin 1) * 128 + 1 * (y 0).val = (y 0).val; omega
theorem blk_6 (c : Dev nD) (t : Fin cfg2.N) : (iblk2 V c 6 t : S128x128.Idx → EReal) = V c main_v12 := by
  funext y
  show V c main_v12 (((cfg2.win 6).blk t).view.emb y) = V c main_v12 y
  obtain ⟨-, -, -, -, -, -, -, -, -, -, e0, e1, -⟩ := idx_facts t
  refine congrArg _ (funext fun a => Fin.ext ?_)
  match a with
  | ⟨0, _⟩ => show win2_6.index t (0 : Fin 2) * 128 + 1 * (y 0).val = (y 0).val; omega
  | ⟨1, _⟩ => show win2_6.index t (1 : Fin 2) * 128 + 1 * (y 1).val = (y 1).val; omega
theorem blk_7 (c : Dev nD) (t : Fin cfg2.N) : (iblk2 V c 7 t : S128.Idx → EReal) = V c main_arg20 := by
  funext y
  show V c main_arg20 (((cfg2.win 7).blk t).view.emb y) = V c main_arg20 y
  obtain ⟨-, -, -, -, -, -, -, -, -, -, -, -, e0, -⟩ := idx_facts t
  refine congrArg _ (funext fun a => Fin.ext ?_)
  match a with
  | ⟨0, _⟩ => show win2_7.index t (0 : Fin 1) * 128 + 1 * (y 0).val = (y 0).val; omega

/-- Entry (p, k) of a row-tiled operand's block at point t is the array's entry on the row that entry (p, q) of
    the result's block lands on. -/
theorem blk_0 (c : Dev nD) (t : Fin cfg2.N) (p : Fin 6000) (k : Fin 128) (q : Fin 128) :
    (iblk2 V c 0 t : S6000x128.Idx → EReal) (ix2 p k)
      = V c main_v42 (ix2 ((((cfg2.win 8).blk t).view.emb (ix2 p q) : S150000x128.Idx) 0) k) := by
  show V c main_v42 (((cfg2.win 0).blk t).view.emb (ix2 p k)) = _
  obtain ⟨e0, e1, -, -, -, -, -, -, -, -, -, -, -, e8, -⟩ := idx_facts t
  refine congrArg _ (funext fun a => Fin.ext ?_)
  match a with
  | ⟨0, _⟩ => show win2_0.index t (0 : Fin 2) * 6000 + 1 * p.val = win2_8.index t (0 : Fin 2) * 6000 + 1 * p.val; omega
  | ⟨1, _⟩ => show win2_0.index t (1 : Fin 2) * 128 + 1 * k.val = k.val; omega
theorem blk_1 (c : Dev nD) (t : Fin cfg2.N) (p : Fin 6000) (k : Fin 128) (q : Fin 128) :
    (iblk2 V c 1 t : S6000x128.Idx → EReal) (ix2 p k)
      = V c main_v54 (ix2 ((((cfg2.win 8).blk t).view.emb (ix2 p q) : S150000x128.Idx) 0) k) := by
  show V c main_v54 (((cfg2.win 1).blk t).view.emb (ix2 p k)) = _
  obtain ⟨-, -, e0, e1, -, -, -, -, -, -, -, -, -, e8, -⟩ := idx_facts t
  refine congrArg _ (funext fun a => Fin.ext ?_)
  match a with
  | ⟨0, _⟩ => show win2_1.index t (0 : Fin 2) * 6000 + 1 * p.val = win2_8.index t (0 : Fin 2) * 6000 + 1 * p.val; omega
  | ⟨1, _⟩ => show win2_1.index t (1 : Fin 2) * 128 + 1 * k.val = k.val; omega

/-- Entry (p, q) of the result's block lands on column q. -/
theorem col_8 (t : Fin cfg2.N) (p : Fin 6000) (q : Fin 128) :
    (((cfg2.win 8).blk t).view.emb (ix2 p q) : S150000x128.Idx) 1 = q := by
  obtain ⟨-, -, -, -, -, -, -, -, -, -, -, -, -, -, e1⟩ := idx_facts t
  refine Fin.ext ?_
  show win2_8.index t (1 : Fin 2) * 128 + 1 * q.val = q.val
  omega

/-- The layer this region computes, of the arrays it finds. -/
abbrev G (c : Dev nD) : S150000x128.Idx → EReal :=
  layer (V c main_v42) (V c main_v54) (V c main_v10) (V c main_arg16) (V c main_v11) (V c main_arg18) (V c main_v12) (V c main_arg20)

/-- What point t writes back is block t of the layer. -/
theorem flushed_eq (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz2]
  simp only [View.ld_unit_zero (S := S6000x128) hz2, View.ld_unit_zero (S := S128x128) hz2, View.ld_unit_zero (S := S128x128) hz2,
    View.ld_unit_zero (S := S128) hz1]
  funext j
  obtain ⟨p, q, rfl⟩ : ∃ (p : Fin 6000) (q : Fin 128), j = ix2 p q := ⟨j 0, j 1, eq_ix2 j⟩
  refine (payload_entry _ _ _ _ _ _ _ _ p q).trans ?_
  show _ = layer (V c main_v42) (V c main_v54) (V c main_v10) (V c main_arg16) (V c main_v11) (V c main_arg18) (V c main_v12) (V c main_arg20)
      (((cfg2.win 8).blk t).view.emb (ix2 p q))
  unfold layer
  rw [col_8 t p q, blk_2 V c t, blk_3 V c t, blk_4 V c t, blk_5 V c t, blk_6 V c t, blk_7 V c t]
  refine congrArg (fun v => stage (V c main_v12) (V c main_arg20) (stage (V c main_v11) (V c main_arg18) (stage (V c main_v10) (V c main_arg16) v)) q)
    (funext fun k => ?_)
  rw [blk_0 V c t p k q, blk_1 V c t p k q]

/-- An index of the array is in point t's block iff each coordinate is in the block's range on its axis. -/
theorem mem_blk (t : Fin cfg2.N) (i : S150000x128.Idx) :
    i ∈ ((cfg2.win 8).blk t).view.set ↔ ∀ a : Fin 2, win2_8.index t a * S6000x128.size a ≤ (i a).val
      ∧ (i a).val < win2_8.index t a * S6000x128.size a + S6000x128.size a := by
  show i ∈ ((View.whole main_v55).slice (win2_8.rect t)).set ↔ _
  rw [View.set_slice_whole, Rect.mem_set_unit]
  exact Iff.rfl

/-- Every block row is some point's. -/
theorem idx_onto : ∀ q0 : Fin 25, ∃ t : Fin cfg2.N, win2_8.index t = ![q0.val, 0] :=
  (by decide +kernel : ∀ q0 : Fin 25, ∃ t : Fin grid2.N, win2_8.index t = ![q0.val, 0])

/-- The 25 blocks tile the array: row r is in the block of the point at block row r / 6000. -/
theorem cover (i : S150000x128.Idx) :
    ∃ t : Fin cfg2.N, (cfg2.win 8).flush t = true ∧ i ∈ ((cfg2.win 8).blk t).view.set := by
  have hi0 : (i 0).val < 150000 := (i 0).isLt
  have hi1 : (i 1).val < 128 := (i 1).isLt
  obtain ⟨t, ht⟩ := idx_onto ⟨(i 0).val / 6000, by omega⟩
  have q0 : win2_8.index t (0 : Fin 2) = (i 0).val / 6000 := congrFun ht 0
  have q1 : win2_8.index t (1 : Fin 2) = 0 := congrFun ht 1
  refine ⟨t, flush2_8 t, ?_⟩
  rw [mem_blk]
  intro a
  match a with
  | ⟨0, _⟩ => show win2_8.index t (0 : Fin 2) * 6000 ≤ (i 0).val ∧ (i 0).val < win2_8.index t (0 : Fin 2) * 6000 + 6000; omega
  | ⟨1, _⟩ => show win2_8.index t (1 : Fin 2) * 128 ≤ (i 1).val ∧ (i 1).val < win2_8.index t (1 : Fin 2) * 128 + 128; omega

/-- The array the region leaves is the layer of the arrays it found. -/
theorem final (c : Dev nD) : ((dat2 V c).arrAt 8 cfg2.N : S150000x128.Idx → EReal) = G V c :=
  (dat2 V c).arrAt_eq_of_cover 8 (G V c) (fun t _ => flushed_eq V c t) cover

end

end Cert.KernelIdeal.Region2

end
-- ==== Proof.Fold2.lean ====
/-
  Region 2 of the kernel's fold: it finds the second layer's output, its neighbour sums and the third layer's parameters, and leaves the third layer's output.
-/
import proofs.«155467_j53996328846048_2_alg».proof.Proof.Fold1
import proofs.«155467_j53996328846048_2_alg».proof.Proof.FoldWalkC
import proofs.«155467_j53996328846048_2_alg».proof.Proof.Region2

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## Region 2 -/

theorem in2_0 (c : Dev nD) : (W5 m ρ c (Proc.devRef .tc main_v42) : S150000x128.Idx → EReal) = H2 m c :=
  (by dsimp only [W5, hostOps2]; after_results_simp : W5 m ρ c (Proc.devRef .tc main_v42) = W4 m ρ c (Proc.devRef .tc main_v42)).trans (out1 m ρ c)

theorem in2_1 (c : Dev nD) : (W5 m ρ c (Proc.devRef .tc main_v54) : S150000x128.Idx → EReal) = agg128 (H2 m c) (m ((c : Thread nD τ).loc main_arg1)) := by
  dsimp only [W5, hostOps2]
  after_results_simp
  simp only [truncf_id, extf_id]
  rw [w4_v1 m ρ c, w4_v3 m ρ c, out1 m ρ c]
  unfold agg128 srcCol dstCol
  rfl

theorem out2 (c : Dev nD) : (W6 m ρ c (Proc.devRef .tc main_v55) : S150000x128.Idx → EReal) = H3 m c := by
  refine (W6_arr m ρ c 8).trans ?_
  refine (Region2.final (V5 m ρ) c).trans ?_
  show layer (W5 m ρ c (Proc.devRef .tc main_v42)) (W5 m ρ c (Proc.devRef .tc main_v54)) (W5 m ρ c (Proc.devRef .tc main_v10)) (W5 m ρ c (Proc.devRef .tc main_arg16)) (W5 m ρ c (Proc.devRef .tc main_v11)) (W5 m ρ c (Proc.devRef .tc main_arg18)) (W5 m ρ c (Proc.devRef .tc main_v12)) (W5 m ρ c (Proc.devRef .tc main_arg20)) = _
  rw [in2_0, in2_1, w5_v10, w5_arg16, w5_v11, w5_arg18, w5_v12, w5_arg20]
  rfl

end Cert.KernelIdeal.Fold

end
-- ==== Proof.FoldWalkD.lean ====
/-
  Walk-back, fourth group: region 3's parameters.

  A buffer that no region writes and that only the first stretch of host operations may write keeps, at every later
  segment boundary, what the first stretch left in it: a parameter array cast to the narrower format (the array
  itself, at exact arithmetic), an argument array, or a row of the edge list.
-/
import proofs.«155467_j53996328846048_2_alg».proof.Proof.FoldBase

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

theorem w1_v13 (c : Dev nD) : (W1 m ρ c (Proc.devRef .tc main_v13) : S128x128.Idx → EReal) = (m ((c : Thread nD τ).loc main_arg21)) := by
  dsimp only [W1, hostOps0]; after_results_simp <;> rfl
theorem w2_v13 (c : Dev nD) : (W2 m ρ c (Proc.devRef .tc main_v13) : S128x128.Idx → EReal) = (m ((c : Thread nD τ).loc main_arg21)) :=
  (W2_of_ne m ρ c main_v13 (by decide)).trans (w1_v13 m ρ c)
theorem w3_v13 (c : Dev nD) : (W3 m ρ c (Proc.devRef .tc main_v13) : S128x128.Idx → EReal) = (m ((c : Thread nD τ).loc main_arg21)) :=
  (by dsimp only [W3, hostOps1]; after_results_simp : W3 m ρ c (Proc.devRef .tc main_v13) = W2 m ρ c (Proc.devRef .tc main_v13)).trans (w2_v13 m ρ c)
theorem w4_v13 (c : Dev nD) : (W4 m ρ c (Proc.devRef .tc main_v13) : S128x128.Idx → EReal) = (m ((c : Thread nD τ).loc main_arg21)) :=
  (W4_of_ne m ρ c main_v13 (by decide)).trans (w3_v13 m ρ c)
theorem w5_v13 (c : Dev nD) : (W5 m ρ c (Proc.devRef .tc main_v13) : S128x128.Idx → EReal) = (m ((c : Thread nD τ).loc main_arg21)) :=
  (by dsimp only [W5, hostOps2]; after_results_simp : W5 m ρ c (Proc.devRef .tc main_v13) = W4 m ρ c (Proc.devRef .tc main_v13)).trans (w4_v13 m ρ c)
theorem w6_v13 (c : Dev nD) : (W6 m ρ c (Proc.devRef .tc main_v13) : S128x128.Idx → EReal) = (m ((c : Thread nD τ).loc main_arg21)) :=
  (W6_of_ne m ρ c main_v13 (by decide)).trans (w5_v13 m ρ c)
theorem w7_v13 (c : Dev nD) : (W7 m ρ c (Proc.devRef .tc main_v13) : S128x128.Idx → EReal) = (m ((c : Thread nD τ).loc main_arg21)) :=
  (by dsimp only [W7, hostOps3]; after_results_simp : W7 m ρ c (Proc.devRef .tc main_v13) = W6 m ρ c (Proc.devRef .tc main_v13)).trans (w6_v13 m ρ c)

theorem w1_arg22 (c : Dev nD) : (W1 m ρ c (Proc.devRef .tc main_arg22) : S128.Idx → EReal) = (m ((c : Thread nD τ).loc main_arg22)) := by
  dsimp only [W1, hostOps0]; after_results_simp <;> rfl
theorem w2_arg22 (c : Dev nD) : (W2 m ρ c (Proc.devRef .tc main_arg22) : S128.Idx → EReal) = (m ((c : Thread nD τ).loc main_arg22)) :=
  (W2_of_ne m ρ c main_arg22 (by decide)).trans (w1_arg22 m ρ c)
theorem w3_arg22 (c : Dev nD) : (W3 m ρ c (Proc.devRef .tc main_arg22) : S128.Idx → EReal) = (m ((c : Thread nD τ).loc main_arg22)) :=
  (by dsimp only [W3, hostOps1]; after_results_simp : W3 m ρ c (Proc.devRef .tc main_arg22) = W2 m ρ c (Proc.devRef .tc main_arg22)).trans (w2_arg22 m ρ c)
theorem w4_arg22 (c : Dev nD) : (W4 m ρ c (Proc.devRef .tc main_arg22) : S128.Idx → EReal) = (m ((c : Thread nD τ).loc main_arg22)) :=
  (W4_of_ne m ρ c main_arg22 (by decide)).trans (w3_arg22 m ρ c)
theorem w5_arg22 (c : Dev nD) : (W5 m ρ c (Proc.devRef .tc main_arg22) : S128.Idx → EReal) = (m ((c : Thread nD τ).loc main_arg22)) :=
  (by dsimp only [W5, hostOps2]; after_results_simp : W5 m ρ c (Proc.devRef .tc main_arg22) = W4 m ρ c (Proc.devRef .tc main_arg22)).trans (w4_arg22 m ρ c)
theorem w6_arg22 (c : Dev nD) : (W6 m ρ c (Proc.devRef .tc main_arg22) : S128.Idx → EReal) = (m ((c : Thread nD τ).loc main_arg22)) :=
  (W6_of_ne m ρ c main_arg22 (by decide)).trans (w5_arg22 m ρ c)
theorem w7_arg22 (c : Dev nD) : (W7 m ρ c (Proc.devRef .tc main_arg22) : S128.Idx → EReal) = (m ((c : Thread nD τ).loc main_arg22)) :=
  (by dsimp only [W7, hostOps3]; after_results_simp : W7 m ρ c (Proc.devRef .tc main_arg22) = W6 m ρ c (Proc.devRef .tc main_arg22)).trans (w6_arg22 m ρ c)

theorem w1_v14 (c : Dev nD) : (W1 m ρ c (Proc.devRef .tc main_v14) : S128x128.Idx → EReal) = (m ((c : Thread nD τ).loc main_arg23)) := by
  dsimp only [W1, hostOps0]; after_results_simp <;> rfl
theorem w2_v14 (c : Dev nD) : (W2 m ρ c (Proc.devRef .tc main_v14) : S128x128.Idx → EReal) = (m ((c : Thread nD τ).loc main_arg23)) :=
  (W2_of_ne m ρ c main_v14 (by decide)).trans (w1_v14 m ρ c)
theorem w3_v14 (c : Dev nD) : (W3 m ρ c (Proc.devRef .tc main_v14) : S128x128.Idx → EReal) = (m ((c : Thread nD τ).loc main_arg23)) :=
  (by dsimp only [W3, hostOps1]; after_results_simp : W3 m ρ c (Proc.devRef .tc main_v14) = W2 m ρ c (Proc.devRef .tc main_v14)).trans (w2_v14 m ρ c)
theorem w4_v14 (c : Dev nD) : (W4 m ρ c (Proc.devRef .tc main_v14) : S128x128.Idx → EReal) = (m ((c : Thread nD τ).loc main_arg23)) :=
  (W4_of_ne m ρ c main_v14 (by decide)).trans (w3_v14 m ρ c)
theorem w5_v14 (c : Dev nD) : (W5 m ρ c (Proc.devRef .tc main_v14) : S128x128.Idx → EReal) = (m ((c : Thread nD τ).loc main_arg23)) :=
  (by dsimp only [W5, hostOps2]; after_results_simp : W5 m ρ c (Proc.devRef .tc main_v14) = W4 m ρ c (Proc.devRef .tc main_v14)).trans (w4_v14 m ρ c)
theorem w6_v14 (c : Dev nD) : (W6 m ρ c (Proc.devRef .tc main_v14) : S128x128.Idx → EReal) = (m ((c : Thread nD τ).loc main_arg23)) :=
  (W6_of_ne m ρ c main_v14 (by decide)).trans (w5_v14 m ρ c)
theorem w7_v14 (c : Dev nD) : (W7 m ρ c (Proc.devRef .tc main_v14) : S128x128.Idx → EReal) = (m ((c : Thread nD τ).loc main_arg23)) :=
  (by dsimp only [W7, hostOps3]; after_results_simp : W7 m ρ c (Proc.devRef .tc main_v14) = W6 m ρ c (Proc.devRef .tc main_v14)).trans (w6_v14 m ρ c)

theorem w1_arg24 (c : Dev nD) : (W1 m ρ c (Proc.devRef .tc main_arg24) : S128.Idx → EReal) = (m ((c : Thread nD τ).loc main_arg24)) := by
  dsimp only [W1, hostOps0]; after_results_simp <;> rfl
theorem w2_arg24 (c : Dev nD) : (W2 m ρ c (Proc.devRef .tc main_arg24) : S128.Idx → EReal) = (m ((c : Thread nD τ).loc main_arg24)) :=
  (W2_of_ne m ρ c main_arg24 (by decide)).trans (w1_arg24 m ρ c)
theorem w3_arg24 (c : Dev nD) : (W3 m ρ c (Proc.devRef .tc main_arg24) : S128.Idx → EReal) = (m ((c : Thread nD τ).loc main_arg24)) :=
  (by dsimp only [W3, hostOps1]; after_results_simp : W3 m ρ c (Proc.devRef .tc main_arg24) = W2 m ρ c (Proc.devRef .tc main_arg24)).trans (w2_arg24 m ρ c)
theorem w4_arg24 (c : Dev nD) : (W4 m ρ c (Proc.devRef .tc main_arg24) : S128.Idx → EReal) = (m ((c : Thread nD τ).loc main_arg24)) :=
  (W4_of_ne m ρ c main_arg24 (by decide)).trans (w3_arg24 m ρ c)
theorem w5_arg24 (c : Dev nD) : (W5 m ρ c (Proc.devRef .tc main_arg24) : S128.Idx → EReal) = (m ((c : Thread nD τ).loc main_arg24)) :=
  (by dsimp only [W5, hostOps2]; after_results_simp : W5 m ρ c (Proc.devRef .tc main_arg24) = W4 m ρ c (Proc.devRef .tc main_arg24)).trans (w4_arg24 m ρ c)
theorem w6_arg24 (c : Dev nD) : (W6 m ρ c (Proc.devRef .tc main_arg24) : S128.Idx → EReal) = (m ((c : Thread nD τ).loc main_arg24)) :=
  (W6_of_ne m ρ c main_arg24 (by decide)).trans (w5_arg24 m ρ c)
theorem w7_arg24 (c : Dev nD) : (W7 m ρ c (Proc.devRef .tc main_arg24) : S128.Idx → EReal) = (m ((c : Thread nD τ).loc main_arg24)) :=
  (by dsimp only [W7, hostOps3]; after_results_simp : W7 m ρ c (Proc.devRef .tc main_arg24) = W6 m ρ c (Proc.devRef .tc main_arg24)).trans (w6_arg24 m ρ c)

theorem w1_v15 (c : Dev nD) : (W1 m ρ c (Proc.devRef .tc main_v15) : S128x2.Idx → EReal) = (m ((c : Thread nD τ).loc main_arg25)) := by
  dsimp only [W1, hostOps0]; after_results_simp <;> rfl
theorem w2_v15 (c : Dev nD) : (W2 m ρ c (Proc.devRef .tc main_v15) : S128x2.Idx → EReal) = (m ((c : Thread nD τ).loc main_arg25)) :=
  (W2_of_ne m ρ c main_v15 (by decide)).trans (w1_v15 m ρ c)
theorem w3_v15 (c : Dev nD) : (W3 m ρ c (Proc.devRef .tc main_v15) : S128x2.Idx → EReal) = (m ((c : Thread nD τ).loc main_arg25)) :=
  (by dsimp only [W3, hostOps1]; after_results_simp : W3 m ρ c (Proc.devRef .tc main_v15) = W2 m ρ c (Proc.devRef .tc main_v15)).trans (w2_v15 m ρ c)
theorem w4_v15 (c : Dev nD) : (W4 m ρ c (Proc.devRef .tc main_v15) : S128x2.Idx → EReal) = (m ((c : Thread nD τ).loc main_arg25)) :=
  (W4_of_ne m ρ c main_v15 (by decide)).trans (w3_v15 m ρ c)
theorem w5_v15 (c : Dev nD) : (W5 m ρ c (Proc.devRef .tc main_v15) : S128x2.Idx → EReal) = (m ((c : Thread nD τ).loc main_arg25)) :=
  (by dsimp only [W5, hostOps2]; after_results_simp : W5 m ρ c (Proc.devRef .tc main_v15) = W4 m ρ c (Proc.devRef .tc main_v15)).trans (w4_v15 m ρ c)
theorem w6_v15 (c : Dev nD) : (W6 m ρ c (Proc.devRef .tc main_v15) : S128x2.Idx → EReal) = (m ((c : Thread nD τ).loc main_arg25)) :=
  (W6_of_ne m ρ c main_v15 (by decide)).trans (w5_v15 m ρ c)
theorem w7_v15 (c : Dev nD) : (W7 m ρ c (Proc.devRef .tc main_v15) : S128x2.Idx → EReal) = (m ((c : Thread nD τ).loc main_arg25)) :=
  (by dsimp only [W7, hostOps3]; after_results_simp : W7 m ρ c (Proc.devRef .tc main_v15) = W6 m ρ c (Proc.devRef .tc main_v15)).trans (w6_v15 m ρ c)

theorem w1_arg26 (c : Dev nD) : (W1 m ρ c (Proc.devRef .tc main_arg26) : S2.Idx → EReal) = (m ((c : Thread nD τ).loc main_arg26)) := by
  dsimp only [W1, hostOps0]; after_results_simp <;> rfl
theorem w2_arg26 (c : Dev nD) : (W2 m ρ c (Proc.devRef .tc main_arg26) : S2.Idx → EReal) = (m ((c : Thread nD τ).loc main_arg26)) :=
  (W2_of_ne m ρ c main_arg26 (by decide)).trans (w1_arg26 m ρ c)
theorem w3_arg26 (c : Dev nD) : (W3 m ρ c (Proc.devRef .tc main_arg26) : S2.Idx → EReal) = (m ((c : Thread nD τ).loc main_arg26)) :=
  (by dsimp only [W3, hostOps1]; after_results_simp : W3 m ρ c (Proc.devRef .tc main_arg26) = W2 m ρ c (Proc.devRef .tc main_arg26)).trans (w2_arg26 m ρ c)
theorem w4_arg26 (c : Dev nD) : (W4 m ρ c (Proc.devRef .tc main_arg26) : S2.Idx → EReal) = (m ((c : Thread nD τ).loc main_arg26)) :=
  (W4_of_ne m ρ c main_arg26 (by decide)).trans (w3_arg26 m ρ c)
theorem w5_arg26 (c : Dev nD) : (W5 m ρ c (Proc.devRef .tc main_arg26) : S2.Idx → EReal) = (m ((c : Thread nD τ).loc main_arg26)) :=
  (by dsimp only [W5, hostOps2]; after_results_simp : W5 m ρ c (Proc.devRef .tc main_arg26) = W4 m ρ c (Proc.devRef .tc main_arg26)).trans (w4_arg26 m ρ c)
theorem w6_arg26 (c : Dev nD) : (W6 m ρ c (Proc.devRef .tc main_arg26) : S2.Idx → EReal) = (m ((c : Thread nD τ).loc main_arg26)) :=
  (W6_of_ne m ρ c main_arg26 (by decide)).trans (w5_arg26 m ρ c)
theorem w7_arg26 (c : Dev nD) : (W7 m ρ c (Proc.devRef .tc main_arg26) : S2.Idx → EReal) = (m ((c : Thread nD τ).loc main_arg26)) :=
  (by dsimp only [W7, hostOps3]; after_results_simp : W7 m ρ c (Proc.devRef .tc main_arg26) = W6 m ρ c (Proc.devRef .tc main_arg26)).trans (w6_arg26 m ρ c)

end Cert.KernelIdeal.Fold

end
-- ==== Proof.Region3.lean ====
/-
  Region 3 of @main (the classifier head), from its one block to the whole array.

  The grid has one point, which stages every operand whole and writes the whole result back.  The body's result at
  entry (p, q) is a plain dense stage of two rectified dense stages of row p of the pooled features: entry (p, q) of
  `Layers.head` of the arrays the region finds.
-/
import proofs.«155467_j53996328846048_2_alg».proof.Proof.Gen.KernelIdeal.Frame
import proofs.«155467_j53996328846048_2_alg».proof.Proof.LibRowStages

set_option maxRecDepth 16384

noncomputable section

namespace Cert.KernelIdeal.Region3

open Cert.KernelIdeal Cert.KernelIdeal.Gen Cert.Layers Cert.Lib.DenseLayer
open Idealize.ShloMosaic Idealize.ShloMosaic.TcCoe Idealize.SL.Sem Idealize.ShloMosaic.ValueIdx
open Idealize.ShloMosaic.Pipeline (Dat Cfg Window)

/-- Each of the head's products contracts the left factor's columns against the right factor's rows. -/
theorem isProd1 : IsMatProduct dot_S2048x128_S128x128_S2048x128_1_0_0_1_n_n := ⟨rfl, rfl, rfl, rfl, rfl, rfl⟩
theorem isProd2 : IsMatProduct dot_S2048x128_S128x2_S2048x2_1_0_0_1_n_n := ⟨rfl, rfl, rfl, rfl, rfl, rfl⟩

/-- The body's result at entry (p, q): a dense stage of two rectified dense stages of row p of the first operand. -/
theorem payload_entry (x0 : Vec Ideal S2048x128 .f32) (x1 : Vec Ideal S128x128 .bf16) (x2 : Vec Ideal S128 .f32)
    (x3 : Vec Ideal S128x128 .bf16) (x4 : Vec Ideal S128 .f32) (x5 : Vec Ideal S128x2 .bf16) (x6 : Vec Ideal S2 .f32)
    (p : Fin 2048) (q : Fin 2) :
    k3_pay1 x0 x1 x2 x3 x4 x5 x6 (ix2 p q) = dense x5 x6 (stage x3 x4 (stage x1 x2 (row x0 p))) q := by
  unfold k3_pay1
  refine (kernel_dense isProd2 _ x5 _ x6 _ _ p q).trans ?_
  refine congrArg (fun v => dense x5 x6 v q) (funext fun k => ?_)
  refine (kernel_stage isProd1 bitsLt_bf16_f32 _ x3 _ x4 _ _ p k).trans ?_
  refine congrArg (fun v => stage x3 x4 v k) (funext fun k' => ?_)
  refine (kernel_stage isProd1 bitsLt_bf16_f32 _ x1 _ x2 _ _ p k').trans ?_
  refine congrArg (fun v => stage x1 x2 v k') (funext fun k'' => ?_)
  show shapeCast S2048x128 x0 shapeCasts_S2048x128_S2048x128 (ix2 p k'') = _
  rw [shapeCast_self]
  rfl

section
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: every block index is 0. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = 0 ∧ win3_7.index t (1 : Fin 2) = 0 :=
  (by decide +kernel : ∀ t : Fin grid3.N, _)

/-- Each operand's block is the whole array. -/
theorem blk_0 (c : Dev nD) (t : Fin cfg3.N) : (iblk3 V c 0 t : S2048x128.Idx → EReal) = V c main_v68 := by
  funext y
  show V c main_v68 (((cfg3.win 0).blk t).view.emb y) = V c main_v68 y
  obtain ⟨e0, e1, -⟩ := idx_facts t
  refine congrArg _ (funext fun a => Fin.ext ?_)
  match a with
  | ⟨0, _⟩ => show win3_0.index t (0 : Fin 2) * 2048 + 1 * (y 0).val = (y 0).val; omega
  | ⟨1, _⟩ => show win3_0.index t (1 : Fin 2) * 128 + 1 * (y 1).val = (y 1).val; omega
theorem blk_1 (c : Dev nD) (t : Fin cfg3.N) : (iblk3 V c 1 t : S128x128.Idx → EReal) = V c main_v13 := by
  funext y
  show V c main_v13 (((cfg3.win 1).blk t).view.emb y) = V c main_v13 y
  obtain ⟨-, -, e0, e1, -⟩ := idx_facts t
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega
theorem blk_2 (c : Dev nD) (t : Fin cfg3.N) : (iblk3 V c 2 t : S128.Idx → EReal) = V c main_arg22 := by
  funext y
  show V c main_arg22 (((cfg3.win 2).blk t).view.emb y) = V c main_arg22 y
  obtain ⟨-, -, -, -, e0, -⟩ := idx_facts t
  refine congrArg _ (funext fun a => Fin.ext ?_)
  match a with
  | ⟨0, _⟩ => show win3_2.index t (0 : Fin 1) * 128 + 1 * (y 0).val = (y 0).val; omega
theorem blk_3 (c : Dev nD) (t : Fin cfg3.N) : (iblk3 V c 3 t : S128x128.Idx → EReal) = V c main_v14 := by
  funext y
  show V c main_v14 (((cfg3.win 3).blk t).view.emb y) = V c main_v14 y
  obtain ⟨-, -, -, -, -, e0, e1, -⟩ := idx_facts t
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega
theorem blk_4 (c : Dev nD) (t : Fin cfg3.N) : (iblk3 V c 4 t : S128.Idx → EReal) = V c main_arg24 := by
  funext y
  show V c main_arg24 (((cfg3.win 4).blk t).view.emb y) = V c main_arg24 y
  obtain ⟨-, -, -, -, -, -, -, e0, -⟩ := idx_facts t
  refine congrArg _ (funext fun a => Fin.ext ?_)
  match a with
  | ⟨0, _⟩ => show win3_4.index t (0 : Fin 1) * 128 + 1 * (y 0).val = (y 0).val; omega
theorem blk_5 (c : Dev nD) (t : Fin cfg3.N) : (iblk3 V c 5 t : S128x2.Idx → EReal) = V c main_v15 := by
  funext y
  show V c main_v15 (((cfg3.win 5).blk t).view.emb y) = V c main_v15 y
  obtain ⟨-, -, -, -, -, -, -, -, e0, e1, -⟩ := idx_facts t
  refine congrArg _ (funext fun a => Fin.ext ?_)
  match a with
  | ⟨0, _⟩ => show win3_5.index t (0 : Fin 2) * 128 + 1 * (y 0).val = (y 0).val; omega
  | ⟨1, _⟩ => show win3_5.index t (1 : Fin 2) * 2 + 1 * (y 1).val = (y 1).val; omega
theorem blk_6 (c : Dev nD) (t : Fin cfg3.N) : (iblk3 V c 6 t : S2.Idx → EReal) = V c main_arg26 := by
  funext y
  show V c main_arg26 (((cfg3.win 6).blk t).view.emb y) = V c main_arg26 y
  obtain ⟨-, -, -, -, -, -, -, -, -, -, e0, -⟩ := idx_facts t
  refine congrArg _ (funext fun a => Fin.ext ?_)
  match a with
  | ⟨0, _⟩ => show win3_6.index t (0 : Fin 1) * 2 + 1 * (y 0).val = (y 0).val; omega

/-- An entry of the result's block is the same entry of the array. -/
theorem emb_7 (t : Fin cfg3.N) (j : S2048x2.Idx) : (((cfg3.win 7).blk t).view.emb j : S2048x2.Idx) = j := by
  obtain ⟨-, -, -, -, -, -, -, -, -, -, -, e0, e1⟩ := idx_facts t
  refine funext fun a => Fin.ext ?_
  match a with
  | ⟨0, _⟩ => show win3_7.index t (0 : Fin 2) * 2048 + 1 * (j 0).val = (j 0).val; omega
  | ⟨1, _⟩ => show win3_7.index t (1 : Fin 2) * 2 + 1 * (j 1).val = (j 1).val; omega

/-- The head, of the arrays the region finds. -/
abbrev G (c : Dev nD) : S2048x2.Idx → EReal :=
  head (V c main_v68) (V c main_v13) (V c main_arg22) (V c main_v14) (V c main_arg24) (V c main_v15) (V c main_arg26)

/-- What the one point writes back is the head's whole result. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz2]
  simp only [View.ld_unit_zero (S := S2048x128) hz2, View.ld_unit_zero (S := S128x128) hz2, View.ld_unit_zero (S := S128x2) hz2,
    View.ld_unit_zero (S := S128) hz1, View.ld_unit_zero (S := S2) hz1]
  funext j
  show _ = head (V c main_v68) (V c main_v13) (V c main_arg22) (V c main_v14) (V c main_arg24) (V c main_v15) (V c main_arg26)
      (((cfg3.win 7).blk t).view.emb j)
  rw [emb_7 t j]
  obtain ⟨p, q, rfl⟩ : ∃ (p : Fin 2048) (q : Fin 2), j = ix2 p q := ⟨j 0, j 1, eq_ix2 j⟩
  refine (payload_entry _ _ _ _ _ _ _ p q).trans ?_
  unfold head
  rw [blk_0 V c t, blk_1 V c t, blk_2 V c t, blk_3 V c t, blk_4 V c t, blk_5 V c t, blk_6 V c t]

/-- An index of the array is in the point's block iff each coordinate is in the block's range on its axis. -/
theorem mem_blk (t : Fin cfg3.N) (i : S2048x2.Idx) :
    i ∈ ((cfg3.win 7).blk t).view.set ↔ ∀ a : Fin 2, win3_7.index t a * S2048x2.size a ≤ (i a).val
      ∧ (i a).val < win3_7.index t a * S2048x2.size a + S2048x2.size a := by
  show i ∈ ((View.whole main_v69).slice (win3_7.rect t)).set ↔ _
  rw [View.set_slice_whole, Rect.mem_set_unit]
  exact Iff.rfl

/-- The one block is the whole array. -/
theorem cover (i : S2048x2.Idx) :
    ∃ t : Fin cfg3.N, (cfg3.win 7).flush t = true ∧ i ∈ ((cfg3.win 7).blk t).view.set := by
  have hi0 : (i 0).val < 2048 := (i 0).isLt
  have hi1 : (i 1).val < 2 := (i 1).isLt
  obtain ⟨-, -, -, -, -, -, -, -, -, -, -, e0, e1⟩ := idx_facts t3_0
  refine ⟨t3_0, flush3_7 t3_0, ?_⟩
  rw [mem_blk]
  intro a
  match a with
  | ⟨0, _⟩ => show win3_7.index t3_0 (0 : Fin 2) * 2048 ≤ (i 0).val ∧ (i 0).val < win3_7.index t3_0 (0 : Fin 2) * 2048 + 2048; omega
  | ⟨1, _⟩ => show win3_7.index t3_0 (1 : Fin 2) * 2 ≤ (i 1).val ∧ (i 1).val < win3_7.index t3_0 (1 : Fin 2) * 2 + 2; omega

/-- The array the region leaves is the head of the arrays it found. -/
theorem final (c : Dev nD) : ((dat3 V c).arrAt 7 cfg3.N : S2048x2.Idx → EReal) = G V c :=
  (dat3 V c).arrAt_eq_of_cover 7 (G V c) (fun t _ => flushed_eq V c t) cover

end

end Cert.KernelIdeal.Region3

end
-- ==== Proof.Fold3.lean ====
/-
  Region 3 of the kernel's fold: it finds the per-graph means of the third layer's output and the head's parameters, and leaves the network's result.
-/
import proofs.«155467_j53996328846048_2_alg».proof.Proof.Fold2
import proofs.«155467_j53996328846048_2_alg».proof.Proof.FoldWalkD
import proofs.«155467_j53996328846048_2_alg».proof.Proof.Region3

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## Region 3 -/

theorem in3_0 (c : Dev nD) : (W7 m ρ c (Proc.devRef .tc main_v68) : S2048x128.Idx → EReal) = P m c := by
  dsimp only [W7, hostOps3]
  after_results_simp
  simp only [extf_id]
  rw [w6_arg2 m ρ c, out2 m ρ c]
  unfold P Cert.Net.pool
  rfl

/-- The result buffer at the last segment boundary is the network of the launch contents. -/
theorem result (c : Dev nD) : (W8 m ρ c (Proc.devRef .tc main_v69) : S2048x2.Idx → EReal)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  refine (W8_arr m ρ c 7).trans ?_
  refine (Region3.final (V7 m ρ) c).trans ?_
  show head (W7 m ρ c (Proc.devRef .tc main_v68)) (W7 m ρ c (Proc.devRef .tc main_v13)) (W7 m ρ c (Proc.devRef .tc main_arg22)) (W7 m ρ c (Proc.devRef .tc main_v14)) (W7 m ρ c (Proc.devRef .tc main_arg24)) (W7 m ρ c (Proc.devRef .tc main_v15)) (W7 m ρ c (Proc.devRef .tc main_arg26)) = _
  rw [in3_0, w7_v13, w7_arg22, w7_v14, w7_arg24, w7_v15, w7_arg26]
  rfl

end Cert.KernelIdeal.Fold

end
-- ==== Proof.KernelValue.lean ====
/-
  The idealized kernel's run, with its result the network of the argument arrays.

  Every weakly fair execution terminates with the result buffer at the last segment boundary's contents, which are
  `Net.network` of the launch contents of the 27 arguments, and with the arguments unchanged.
-/
import proofs.«155467_j53996328846048_2_alg».proof.Proof.KernelResult
import proofs.«155467_j53996328846048_2_alg».proof.Proof.Fold3

set_option maxRecDepth 16384

noncomputable section

namespace Cert.KernelIdeal.Fold

open Cert.KernelIdeal Cert.KernelIdeal.Gen Cert.Layers Cert.Net
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

theorem run_network : θ_run (defs (F := Ideal)) (onTc (τ := τ) (main (F := Ideal))) ⟨m, fun _ => 0, ρ⟩ (fun r => ∀ c : Dev nD,
      (r.2.mem ((c.tc : Thread nD τ).loc main_v69) : S2048x2.Idx → EReal) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run (defs (F := Ideal)) _ _).mono (fun r h c => ⟨(h c).1.trans (result m ρ c), (h c).2⟩)
    (Cert.KernelIdeal.Result.run_result (F := Ideal) m ρ)

end Cert.KernelIdeal.Fold

end
-- ==== Proof.RefValue.lean ====
/-
  The idealized reference's result as the network of its arguments.

  The reference's @main is a straight line of host operations.  Read one operation at a time, each of its three
  graph-convolution layers is `Layers.layer` of the previous features and their neighbour sums (three host dense
  stages, each a dot_general, a bias laid out by two broadcasts and a maximum with zero, read row by row), the
  neighbour sums and the per-graph means are the shared host chains of `Net`, and its last three products are
  `Layers.head`.
-/
import proofs.«155467_j53996328846048_2_alg».proof.Proof.Gen.ReferenceIdeal.Read
import proofs.«155467_j53996328846048_2_alg».proof.Proof.Net

set_option maxRecDepth 16384

noncomputable section

namespace Cert.ReferenceIdeal.RefValue

open Cert.ReferenceIdeal Cert.ReferenceIdeal.Gen Cert.ReferenceIdeal.Read Cert.Layers Cert.Lib.DenseLayer
open Idealize.ShloMosaic Idealize.ShloMosaic.TcCoe Idealize.SL.Sem Idealize.ShloMosaic.ValueIdx

/-- Each of the reference's products contracts the left factor's columns against the right factor's rows. -/
theorem isProdA : IsMatProduct dot_S150000x32_S32x128_S150000x128_1_0_0_1_n_n := ⟨rfl, rfl, rfl, rfl, rfl, rfl⟩
theorem isProdB : IsMatProduct dot_S150000x128_S128x128_S150000x128_1_0_0_1_n_n := ⟨rfl, rfl, rfl, rfl, rfl, rfl⟩
theorem isProdC : IsMatProduct dot_S2048x128_S128x128_S2048x128_1_0_0_1_n_n := ⟨rfl, rfl, rfl, rfl, rfl, rfl⟩
theorem isProdD : IsMatProduct dot_S2048x128_S128x2_S2048x2_1_0_0_1_n_n := ⟨rfl, rfl, rfl, rfl, rfl, rfl⟩

/-- The reference's neighbour sums before layer 1 are the shared chain applied to that layer's input. -/
theorem layer1_agg (x0 : (⟨S150000x32, .f32⟩ : BufTy).Contents (Elt Ideal)) (x1 : (⟨S2x600000, .i32⟩ : BufTy).Contents (Elt Ideal)) :
    val_main_v13 (F := Ideal) x0 x1 = Cert.Net.agg32 x0 x1 := by
  unfold val_main_v13 val_main_v12 val_main_v11 val_main_cst val_main_v10 val_main_v9 val_main_v8 val_main_v7 val_main_v6 val_main_v5 val_main_v4 val_main_c_0 val_main_v3 val_main_v2 val_main_c val_main_v1 val_main_v0
  rfl

/-- Layer 1 of the reference is the layer of its input features. -/
theorem layer1 (x0 : (⟨S150000x32, .f32⟩ : BufTy).Contents (Elt Ideal)) (x1 : (⟨S2x600000, .i32⟩ : BufTy).Contents (Elt Ideal)) (x3 : (⟨S32x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v29 (F := Ideal) x0 x1 x3 x4 x5 x6 x7 x8 = Cert.Net.h1 x0 x1 x3 x4 x5 x6 x7 x8 := by
  funext i
  obtain ⟨p, q, rfl⟩ : ∃ (p : Fin 150000) (q : Fin 128), i = ix2 p q := ⟨i 0, i 1, eq_ix2 i⟩
  show _ = stage x7 x8 (stage x5 x6 (stage x3 x4 (fun k => x0 (ix2 p k) + Cert.Net.agg32 x0 x1 (ix2 p k)))) q
  unfold val_main_v29 val_main_call2_v0 val_main_call2_cst val_main_v28 val_main_v27 val_main_v26 val_main_v25
  refine (host_stage isProdB _ x7 x8 _ _ _ p q).trans ?_
  refine congrArg (fun v => stage x7 x8 v q) (funext fun k => ?_)
  unfold val_main_v24 val_main_call1_v0 val_main_call1_cst val_main_v23 val_main_v22 val_main_v21 val_main_v20
  refine (host_stage isProdB _ x5 x6 _ _ _ p k).trans ?_
  refine congrArg (fun v => stage x5 x6 v k) (funext fun k' => ?_)
  unfold val_main_v19 val_main_call0_v0 val_main_call0_cst val_main_v18 val_main_v17 val_main_v16 val_main_v15 val_main_v14
  refine (host_stage isProdA _ x3 x4 _ _ _ p k').trans ?_
  refine congrArg (fun v => stage x3 x4 v k') (funext fun k'' => ?_)
  show x0 (ix2 p k'') + val_main_v13 (F := Ideal) x0 x1 (ix2 p k'') = _
  rw [layer1_agg]

/-- The reference's neighbour sums before layer 2 are the shared chain applied to that layer's input. -/
theorem layer2_agg (x0 : (⟨S150000x32, .f32⟩ : BufTy).Contents (Elt Ideal)) (x1 : (⟨S2x600000, .i32⟩ : BufTy).Contents (Elt Ideal)) (x3 : (⟨S32x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v43 (F := Ideal) x0 x1 x3 x4 x5 x6 x7 x8 = Cert.Net.agg128 (val_main_v29 (F := Ideal) x0 x1 x3 x4 x5 x6 x7 x8) x1 := by
  unfold val_main_v43 val_main_v42 val_main_v41 val_main_cst_3 val_main_v40 val_main_v39 val_main_v38 val_main_v37 val_main_v36 val_main_v35 val_main_v34 val_main_c_2 val_main_v33 val_main_v32 val_main_c_1 val_main_v31 val_main_v30
  rfl

/-- Layer 2 of the reference is the layer of its input features. -/
theorem layer2 (x0 : (⟨S150000x32, .f32⟩ : BufTy).Contents (Elt Ideal)) (x1 : (⟨S2x600000, .i32⟩ : BufTy).Contents (Elt Ideal)) (x3 : (⟨S32x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v59 (F := Ideal) x0 x1 x3 x4 x5 x6 x7 x8 x9 x10 x11 x12 x13 x14 = Cert.Net.hNext (val_main_v29 (F := Ideal) x0 x1 x3 x4 x5 x6 x7 x8) x1 x9 x10 x11 x12 x13 x14 := by
  funext i
  obtain ⟨p, q, rfl⟩ : ∃ (p : Fin 150000) (q : Fin 128), i = ix2 p q := ⟨i 0, i 1, eq_ix2 i⟩
  show _ = stage x13 x14 (stage x11 x12 (stage x9 x10 (fun k => (val_main_v29 (F := Ideal) x0 x1 x3 x4 x5 x6 x7 x8) (ix2 p k) + Cert.Net.agg128 (val_main_v29 (F := Ideal) x0 x1 x3 x4 x5 x6 x7 x8) x1 (ix2 p k)))) q
  unfold val_main_v59 val_main_call5_v0 val_main_call5_cst val_main_v58 val_main_v57 val_main_v56 val_main_v55
  refine (host_stage isProdB _ x13 x14 _ _ _ p q).trans ?_
  refine congrArg (fun v => stage x13 x14 v q) (funext fun k => ?_)
  unfold val_main_v54 val_main_call4_v0 val_main_call4_cst val_main_v53 val_main_v52 val_main_v51 val_main_v50
  refine (host_stage isProdB _ x11 x12 _ _ _ p k).trans ?_
  refine congrArg (fun v => stage x11 x12 v k) (funext fun k' => ?_)
  unfold val_main_v49 val_main_call3_v0 val_main_call3_cst val_main_v48 val_main_v47 val_main_v46 val_main_v45 val_main_v44
  refine (host_stage isProdB _ x9 x10 _ _ _ p k').trans ?_
  refine congrArg (fun v => stage x9 x10 v k') (funext fun k'' => ?_)
  show (val_main_v29 (F := Ideal) x0 x1 x3 x4 x5 x6 x7 x8) (ix2 p k'') + val_main_v43 (F := Ideal) x0 x1 x3 x4 x5 x6 x7 x8 (ix2 p k'') = _
  rw [layer2_agg]

/-- The reference's neighbour sums before layer 3 are the shared chain applied to that layer's input. -/
theorem layer3_agg (x0 : (⟨S150000x32, .f32⟩ : BufTy).Contents (Elt Ideal)) (x1 : (⟨S2x600000, .i32⟩ : BufTy).Contents (Elt Ideal)) (x3 : (⟨S32x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v73 (F := Ideal) x0 x1 x3 x4 x5 x6 x7 x8 x9 x10 x11 x12 x13 x14 = Cert.Net.agg128 (val_main_v59 (F := Ideal) x0 x1 x3 x4 x5 x6 x7 x8 x9 x10 x11 x12 x13 x14) x1 := by
  unfold val_main_v73 val_main_v72 val_main_v71 val_main_cst_6 val_main_v70 val_main_v69 val_main_v68 val_main_v67 val_main_v66 val_main_v65 val_main_v64 val_main_c_5 val_main_v63 val_main_v62 val_main_c_4 val_main_v61 val_main_v60
  rfl

/-- Layer 3 of the reference is the layer of its input features. -/
theorem layer3 (x0 : (⟨S150000x32, .f32⟩ : BufTy).Contents (Elt Ideal)) (x1 : (⟨S2x600000, .i32⟩ : BufTy).Contents (Elt Ideal)) (x3 : (⟨S32x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) :
    val_main_v89 (F := Ideal) x0 x1 x3 x4 x5 x6 x7 x8 x9 x10 x11 x12 x13 x14 x15 x16 x17 x18 x19 x20 = Cert.Net.hNext (val_main_v59 (F := Ideal) x0 x1 x3 x4 x5 x6 x7 x8 x9 x10 x11 x12 x13 x14) x1 x15 x16 x17 x18 x19 x20 := by
  funext i
  obtain ⟨p, q, rfl⟩ : ∃ (p : Fin 150000) (q : Fin 128), i = ix2 p q := ⟨i 0, i 1, eq_ix2 i⟩
  show _ = stage x19 x20 (stage x17 x18 (stage x15 x16 (fun k => (val_main_v59 (F := Ideal) x0 x1 x3 x4 x5 x6 x7 x8 x9 x10 x11 x12 x13 x14) (ix2 p k) + Cert.Net.agg128 (val_main_v59 (F := Ideal) x0 x1 x3 x4 x5 x6 x7 x8 x9 x10 x11 x12 x13 x14) x1 (ix2 p k)))) q
  unfold val_main_v89 val_main_call8_v0 val_main_call8_cst val_main_v88 val_main_v87 val_main_v86 val_main_v85
  refine (host_stage isProdB _ x19 x20 _ _ _ p q).trans ?_
  refine congrArg (fun v => stage x19 x20 v q) (funext fun k => ?_)
  unfold val_main_v84 val_main_call7_v0 val_main_call7_cst val_main_v83 val_main_v82 val_main_v81 val_main_v80
  refine (host_stage isProdB _ x17 x18 _ _ _ p k).trans ?_
  refine congrArg (fun v => stage x17 x18 v k) (funext fun k' => ?_)
  unfold val_main_v79 val_main_call6_v0 val_main_call6_cst val_main_v78 val_main_v77 val_main_v76 val_main_v75 val_main_v74
  refine (host_stage isProdB _ x15 x16 _ _ _ p k').trans ?_
  refine congrArg (fun v => stage x15 x16 v k') (funext fun k'' => ?_)
  show (val_main_v59 (F := Ideal) x0 x1 x3 x4 x5 x6 x7 x8 x9 x10 x11 x12 x13 x14) (ix2 p k'') + val_main_v73 (F := Ideal) x0 x1 x3 x4 x5 x6 x7 x8 x9 x10 x11 x12 x13 x14 (ix2 p k'') = _
  rw [layer3_agg]

/-- The reference's per-graph means are the shared chain applied to the third layer's output. -/
theorem pool_eq (x0 : (⟨S150000x32, .f32⟩ : BufTy).Contents (Elt Ideal)) (x1 : (⟨S2x600000, .i32⟩ : BufTy).Contents (Elt Ideal)) (x2 : (⟨S150000, .i32⟩ : BufTy).Contents (Elt Ideal)) (x3 : (⟨S32x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) :
    val_main_v101 (F := Ideal) x0 x1 x2 x3 x4 x5 x6 x7 x8 x9 x10 x11 x12 x13 x14 x15 x16 x17 x18 x19 x20 = Cert.Net.pool (val_main_v89 (F := Ideal) x0 x1 x3 x4 x5 x6 x7 x8 x9 x10 x11 x12 x13 x14 x15 x16 x17 x18 x19 x20) x2 := by
  unfold val_main_v101 val_main_v100 val_main_v99 val_main_v98 val_main_v97 val_main_cst_10 val_main_v96 val_main_v95 val_main_v94 val_main_cst_9 val_main_v93 val_main_cst_8 val_main_v92 val_main_v91 val_main_v90 val_main_cst_7
  rfl

/-- The reference's last three products are the head of the per-graph means. -/
theorem head_eq (x0 : (⟨S150000x32, .f32⟩ : BufTy).Contents (Elt Ideal)) (x1 : (⟨S2x600000, .i32⟩ : BufTy).Contents (Elt Ideal)) (x2 : (⟨S150000, .i32⟩ : BufTy).Contents (Elt Ideal)) (x3 : (⟨S32x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x2, .f32⟩ : BufTy).Contents (Elt Ideal)) (x26 : (⟨S2, .f32⟩ : BufTy).Contents (Elt Ideal)) :
    val_main_v115 (F := Ideal) x0 x1 x2 x3 x4 x5 x6 x7 x8 x9 x10 x11 x12 x13 x14 x15 x16 x17 x18 x19 x20 x21 x22 x23 x24 x25 x26 = head (val_main_v101 (F := Ideal) x0 x1 x2 x3 x4 x5 x6 x7 x8 x9 x10 x11 x12 x13 x14 x15 x16 x17 x18 x19 x20) x21 x22 x23 x24 x25 x26 := by
  funext i
  obtain ⟨p, q, rfl⟩ : ∃ (p : Fin 2048) (q : Fin 2), i = ix2 p q := ⟨i 0, i 1, eq_ix2 i⟩
  show _ = dense x25 x26 (stage x23 x24 (stage x21 x22 (row (val_main_v101 (F := Ideal) x0 x1 x2 x3 x4 x5 x6 x7 x8 x9 x10 x11 x12 x13 x14 x15 x16 x17 x18 x19 x20) p))) q
  unfold val_main_v115 val_main_v114 val_main_v113 val_main_v112
  refine (host_dense isProdD _ x25 x26 _ _ p q).trans ?_
  refine congrArg (fun v => dense x25 x26 v q) (funext fun k => ?_)
  unfold val_main_v111 val_main_call10_v0 val_main_call10_cst val_main_v110 val_main_v109 val_main_v108 val_main_v107
  refine (host_stage isProdC _ x23 x24 _ _ _ p k).trans ?_
  refine congrArg (fun v => stage x23 x24 v k) (funext fun k' => ?_)
  unfold val_main_v106 val_main_call9_v0 val_main_call9_cst val_main_v105 val_main_v104 val_main_v103 val_main_v102
  exact host_stage isProdC _ x21 x22 _ _ _ p k'

/-- The reference's result is the network of its 27 arguments. -/
theorem result_eq (x0 : (⟨S150000x32, .f32⟩ : BufTy).Contents (Elt Ideal)) (x1 : (⟨S2x600000, .i32⟩ : BufTy).Contents (Elt Ideal)) (x2 : (⟨S150000, .i32⟩ : BufTy).Contents (Elt Ideal)) (x3 : (⟨S32x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x2, .f32⟩ : BufTy).Contents (Elt Ideal)) (x26 : (⟨S2, .f32⟩ : BufTy).Contents (Elt Ideal)) :
    val_main_v115 (F := Ideal) x0 x1 x2 x3 x4 x5 x6 x7 x8 x9 x10 x11 x12 x13 x14 x15 x16 x17 x18 x19 x20 x21 x22 x23 x24 x25 x26 = Cert.Net.network x0 x1 x2 x3 x4 x5 x6 x7 x8 x9 x10 x11 x12 x13 x14 x15 x16 x17 x18 x19 x20 x21 x22 x23 x24 x25 x26 := by
  rw [head_eq, pool_eq, layer3, layer2, layer1]
  rfl

end Cert.ReferenceIdeal.RefValue

end
-- ==== Proof.RefRun.lean ====
/-
  The idealized reference's run, with its result the network of the argument arrays.

  Every weakly fair execution terminates with the result buffer at the operations' composed term of the arguments,
  which is `Net.network` of them, and with the arguments unchanged.
-/
import proofs.«155467_j53996328846048_2_alg».proof.Proof.RefValue

set_option maxRecDepth 16384

noncomputable section

namespace Cert.ReferenceIdeal.RefValue

open Cert.ReferenceIdeal Cert.ReferenceIdeal.Gen Cert.ReferenceIdeal.Read Cert.Layers
open Idealize.ShloMosaic Idealize.ShloMosaic.TcCoe Idealize.SL.Sem Idealize.ShloMosaic.ValueIdx

variable (m : (ℓ : Loc nD τ sig) → Buf (Elt Ideal) ℓ) (ρ : Dev nD → PrngReg)

theorem run_network : θ_run (defs (F := Ideal)) (onTc (τ := τ) (main (F := Ideal))) ⟨m, fun _ => 0, ρ⟩ (fun r => ∀ c : Dev nD,
      (r.2.mem ((c.tc : Thread nD τ).loc main_v115) : Cert.KernelIdeal.S2048x2.Idx → EReal) = Cert.Net.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run (defs (F := Ideal)) _ _).mono
    (fun r h c => ⟨(h c).1.trans ((val_main_v115_eq m c).trans (result_eq _ _ _ _ _ _ _ _ _ _ _ _ _ _ _ _ _ _ _ _ _ _ _ _ _ _ _)), (h c).2⟩)
    (Cert.ReferenceIdeal.Value.run (F := Ideal) m ρ)

end Cert.ReferenceIdeal.RefValue

end
-- ==== Proof.NetCongr.lean ====
/-
  The network is a function of its 27 arguments: equal arguments give equal results.
-/
import proofs.«155467_j53996328846048_2_alg».proof.Proof.Net

noncomputable section

namespace Cert.Net

open Cert.KernelIdeal
open Idealize.ShloMosaic Idealize.ShloMosaic.TcCoe Idealize.SL.Sem

theorem network_congr
    {x0 y0 : S150000x32.Idx → EReal}
    {x1 y1 : (⟨S2x600000, .i32⟩ : BufTy).Contents (Elt Ideal)}
    {x2 y2 : (⟨S150000, .i32⟩ : BufTy).Contents (Elt Ideal)}
    {x3 y3 : S32x128.Idx → EReal}
    {x4 y4 : S128.Idx → EReal}
    {x5 y5 : S128x128.Idx → EReal}
    {x6 y6 : S128.Idx → EReal}
    {x7 y7 : S128x128.Idx → EReal}
    {x8 y8 : S128.Idx → EReal}
    {x9 y9 : S128x128.Idx → EReal}
    {x10 y10 : S128.Idx → EReal}
    {x11 y11 : S128x128.Idx → EReal}
    {x12 y12 : S128.Idx → EReal}
    {x13 y13 : S128x128.Idx → EReal}
    {x14 y14 : S128.Idx → EReal}
    {x15 y15 : S128x128.Idx → EReal}
    {x16 y16 : S128.Idx → EReal}
    {x17 y17 : S128x128.Idx → EReal}
    {x18 y18 : S128.Idx → EReal}
    {x19 y19 : S128x128.Idx → EReal}
    {x20 y20 : S128.Idx → EReal}
    {x21 y21 : S128x128.Idx → EReal}
    {x22 y22 : S128.Idx → EReal}
    {x23 y23 : S128x128.Idx → EReal}
    {x24 y24 : S128.Idx → EReal}
    {x25 y25 : S128x2.Idx → EReal}
    {x26 y26 : S2.Idx → EReal}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) :
    network x0 x1 x2 x3 x4 x5 x6 x7 x8 x9 x10 x11 x12 x13 x14 x15 x16 x17 x18 x19 x20 x21 x22 x23 x24 x25 x26
      = network y0 y1 y2 y3 y4 y5 y6 y7 y8 y9 y10 y11 y12 y13 y14 y15 y16 y17 y18 y19 y20 y21 y22 y23 y24 y25 y26 := by
  subst h0 h1 h2 h3 h4 h5 h6 h7 h8 h9 h10 h11 h12 h13 h14 h15 h16 h17 h18 h19 h20 h21 h22 h23 h24 h25 h26
  rfl

end Cert.Net

end
-- ==== Proof.lean ====
/-
  The certificate of a three-layer graph-convolution classifier: a Pallas implementation against its jnp reference.

  Both programs compute, for 150000 nodes with 32 features, 600000 edges and 2048 graphs: three layers, each adding to
  every node's feature row the sum of the rows its incoming edges start at and applying three rectified dense stages to
  the result; the mean of the node rows of each graph; and a classifier head of two rectified dense stages and one plain
  dense stage.  The kernel tiles the node rows by 6000 for the dense part of each layer, carries features between layers
  in a narrower float format and runs its products on the TensorCore into zero accumulators; the reference is a straight
  line of host operations.  At exact arithmetic a change of float format is the identity, a product into a zero
  accumulator is the host's dot_general, and a row tile of a row-wise function is that function's restriction to the
  tile, so both results are `Net.network` of the 27 argument arrays (`Fold.result` for the kernel, read off its run's
  segment boundaries; `RefValue.result_eq` for the reference, read off its run one operation at a time).  No step uses
  that the inputs are finite: no sum is regrouped across a product.  The idealization rewrote no operation, so
  `preserves` has nothing to state.
-/
import proofs.«155467_j53996328846048_2_alg».proof.Defs
import proofs.«155467_j53996328846048_2_alg».proof.Proof.Gen.Kernel
import proofs.«155467_j53996328846048_2_alg».proof.Proof.Gen.Kernel.Frame
import proofs.«155467_j53996328846048_2_alg».proof.Proof.Gen.KernelIdeal
import proofs.«155467_j53996328846048_2_alg».proof.Proof.Gen.KernelIdeal.Frame
import proofs.«155467_j53996328846048_2_alg».proof.Proof.Gen.ReferenceIdeal
import proofs.«155467_j53996328846048_2_alg».proof.Proof.Gen.Pre_finite_inputs
import proofs.«155467_j53996328846048_2_alg».proof.Proof.Gen.ReferenceIdeal.Run
import proofs.«155467_j53996328846048_2_alg».proof.Proof.Gen.ReferenceIdeal.Read
import proofs.«155467_j53996328846048_2_alg».proof.Proof.KernelValue
import proofs.«155467_j53996328846048_2_alg».proof.Proof.RefRun
import proofs.«155467_j53996328846048_2_alg».proof.Proof.NetCongr
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both idealized programs end with the network of those arguments. -/
theorem algebraic : Cert.algebraic_KernelIdeal_ReferenceIdeal := by
  intro m ρ m' ρ' _ hagree
  refine ⟨fun c => Cert.Net.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26)),
    Cert.KernelIdeal.Fold.run_network m ρ, ?_⟩
  refine (θ_run (Cert.ReferenceIdeal.defs (F := Ideal)) _ _).mono (fun r h c => ⟨(h c).1.trans ?_, (h c).2⟩)
    (Cert.ReferenceIdeal.RefValue.run_network m' ρ')
  obtain ⟨e0, e1, e2, e3, e4, e5, e6, e7, e8, e9, e10, e11, e12, e13, e14, e15, e16, e17, e18, e19, e20, e21, e22, e23, e24, e25, e26⟩ := hagree c
  have a0 : ((m' ((c.tc : Thread Cert.ReferenceIdeal.nD Cert.ReferenceIdeal.τ).loc Cert.ReferenceIdeal.main_arg0)) : Cert.KernelIdeal.S150000x32.Idx → EReal) = (m ((c.tc : Thread Cert.KernelIdeal.nD Cert.KernelIdeal.τ).loc Cert.KernelIdeal.main_arg0)) := e0
  have a1 : ((m' ((c.tc : Thread Cert.ReferenceIdeal.nD Cert.ReferenceIdeal.τ).loc Cert.ReferenceIdeal.main_arg1)) : (⟨Cert.KernelIdeal.S2x600000, .i32⟩ : BufTy).Contents (Elt Ideal)) = (m ((c.tc : Thread Cert.KernelIdeal.nD Cert.KernelIdeal.τ).loc Cert.KernelIdeal.main_arg1)) := e1
  have a2 : ((m' ((c.tc : Thread Cert.ReferenceIdeal.nD Cert.ReferenceIdeal.τ).loc Cert.ReferenceIdeal.main_arg2)) : (⟨Cert.KernelIdeal.S150000, .i32⟩ : BufTy).Contents (Elt Ideal)) = (m ((c.tc : Thread Cert.KernelIdeal.nD Cert.KernelIdeal.τ).loc Cert.KernelIdeal.main_arg2)) := e2
  have a3 : ((m' ((c.tc : Thread Cert.ReferenceIdeal.nD Cert.ReferenceIdeal.τ).loc Cert.ReferenceIdeal.main_arg3)) : Cert.KernelIdeal.S32x128.Idx → EReal) = (m ((c.tc : Thread Cert.KernelIdeal.nD Cert.KernelIdeal.τ).loc Cert.KernelIdeal.main_arg3)) := e3
  have a4 : ((m' ((c.tc : Thread Cert.ReferenceIdeal.nD Cert.ReferenceIdeal.τ).loc Cert.ReferenceIdeal.main_arg4)) : Cert.KernelIdeal.S128.Idx → EReal) = (m ((c.tc : Thread Cert.KernelIdeal.nD Cert.KernelIdeal.τ).loc Cert.KernelIdeal.main_arg4)) := e4
  have a5 : ((m' ((c.tc : Thread Cert.ReferenceIdeal.nD Cert.ReferenceIdeal.τ).loc Cert.ReferenceIdeal.main_arg5)) : Cert.KernelIdeal.S128x128.Idx → EReal) = (m ((c.tc : Thread Cert.KernelIdeal.nD Cert.KernelIdeal.τ).loc Cert.KernelIdeal.main_arg5)) := e5
  have a6 : ((m' ((c.tc : Thread Cert.ReferenceIdeal.nD Cert.ReferenceIdeal.τ).loc Cert.ReferenceIdeal.main_arg6)) : Cert.KernelIdeal.S128.Idx → EReal) = (m ((c.tc : Thread Cert.KernelIdeal.nD Cert.KernelIdeal.τ).loc Cert.KernelIdeal.main_arg6)) := e6
  have a7 : ((m' ((c.tc : Thread Cert.ReferenceIdeal.nD Cert.ReferenceIdeal.τ).loc Cert.ReferenceIdeal.main_arg7)) : Cert.KernelIdeal.S128x128.Idx → EReal) = (m ((c.tc : Thread Cert.KernelIdeal.nD Cert.KernelIdeal.τ).loc Cert.KernelIdeal.main_arg7)) := e7
  have a8 : ((m' ((c.tc : Thread Cert.ReferenceIdeal.nD Cert.ReferenceIdeal.τ).loc Cert.ReferenceIdeal.main_arg8)) : Cert.KernelIdeal.S128.Idx → EReal) = (m ((c.tc : Thread Cert.KernelIdeal.nD Cert.KernelIdeal.τ).loc Cert.KernelIdeal.main_arg8)) := e8
  have a9 : ((m' ((c.tc : Thread Cert.ReferenceIdeal.nD Cert.ReferenceIdeal.τ).loc Cert.ReferenceIdeal.main_arg9)) : Cert.KernelIdeal.S128x128.Idx → EReal) = (m ((c.tc : Thread Cert.KernelIdeal.nD Cert.KernelIdeal.τ).loc Cert.KernelIdeal.main_arg9)) := e9
  have a10 : ((m' ((c.tc : Thread Cert.ReferenceIdeal.nD Cert.ReferenceIdeal.τ).loc Cert.ReferenceIdeal.main_arg10)) : Cert.KernelIdeal.S128.Idx → EReal) = (m ((c.tc : Thread Cert.KernelIdeal.nD Cert.KernelIdeal.τ).loc Cert.KernelIdeal.main_arg10)) := e10
  have a11 : ((m' ((c.tc : Thread Cert.ReferenceIdeal.nD Cert.ReferenceIdeal.τ).loc Cert.ReferenceIdeal.main_arg11)) : Cert.KernelIdeal.S128x128.Idx → EReal) = (m ((c.tc : Thread Cert.KernelIdeal.nD Cert.KernelIdeal.τ).loc Cert.KernelIdeal.main_arg11)) := e11
  have a12 : ((m' ((c.tc : Thread Cert.ReferenceIdeal.nD Cert.ReferenceIdeal.τ).loc Cert.ReferenceIdeal.main_arg12)) : Cert.KernelIdeal.S128.Idx → EReal) = (m ((c.tc : Thread Cert.KernelIdeal.nD Cert.KernelIdeal.τ).loc Cert.KernelIdeal.main_arg12)) := e12
  have a13 : ((m' ((c.tc : Thread Cert.ReferenceIdeal.nD Cert.ReferenceIdeal.τ).loc Cert.ReferenceIdeal.main_arg13)) : Cert.KernelIdeal.S128x128.Idx → EReal) = (m ((c.tc : Thread Cert.KernelIdeal.nD Cert.KernelIdeal.τ).loc Cert.KernelIdeal.main_arg13)) := e13
  have a14 : ((m' ((c.tc : Thread Cert.ReferenceIdeal.nD Cert.ReferenceIdeal.τ).loc Cert.ReferenceIdeal.main_arg14)) : Cert.KernelIdeal.S128.Idx → EReal) = (m ((c.tc : Thread Cert.KernelIdeal.nD Cert.KernelIdeal.τ).loc Cert.KernelIdeal.main_arg14)) := e14
  have a15 : ((m' ((c.tc : Thread Cert.ReferenceIdeal.nD Cert.ReferenceIdeal.τ).loc Cert.ReferenceIdeal.main_arg15)) : Cert.KernelIdeal.S128x128.Idx → EReal) = (m ((c.tc : Thread Cert.KernelIdeal.nD Cert.KernelIdeal.τ).loc Cert.KernelIdeal.main_arg15)) := e15
  have a16 : ((m' ((c.tc : Thread Cert.ReferenceIdeal.nD Cert.ReferenceIdeal.τ).loc Cert.ReferenceIdeal.main_arg16)) : Cert.KernelIdeal.S128.Idx → EReal) = (m ((c.tc : Thread Cert.KernelIdeal.nD Cert.KernelIdeal.τ).loc Cert.KernelIdeal.main_arg16)) := e16
  have a17 : ((m' ((c.tc : Thread Cert.ReferenceIdeal.nD Cert.ReferenceIdeal.τ).loc Cert.ReferenceIdeal.main_arg17)) : Cert.KernelIdeal.S128x128.Idx → EReal) = (m ((c.tc : Thread Cert.KernelIdeal.nD Cert.KernelIdeal.τ).loc Cert.KernelIdeal.main_arg17)) := e17
  have a18 : ((m' ((c.tc : Thread Cert.ReferenceIdeal.nD Cert.ReferenceIdeal.τ).loc Cert.ReferenceIdeal.main_arg18)) : Cert.KernelIdeal.S128.Idx → EReal) = (m ((c.tc : Thread Cert.KernelIdeal.nD Cert.KernelIdeal.τ).loc Cert.KernelIdeal.main_arg18)) := e18
  have a19 : ((m' ((c.tc : Thread Cert.ReferenceIdeal.nD Cert.ReferenceIdeal.τ).loc Cert.ReferenceIdeal.main_arg19)) : Cert.KernelIdeal.S128x128.Idx → EReal) = (m ((c.tc : Thread Cert.KernelIdeal.nD Cert.KernelIdeal.τ).loc Cert.KernelIdeal.main_arg19)) := e19
  have a20 : ((m' ((c.tc : Thread Cert.ReferenceIdeal.nD Cert.ReferenceIdeal.τ).loc Cert.ReferenceIdeal.main_arg20)) : Cert.KernelIdeal.S128.Idx → EReal) = (m ((c.tc : Thread Cert.KernelIdeal.nD Cert.KernelIdeal.τ).loc Cert.KernelIdeal.main_arg20)) := e20
  have a21 : ((m' ((c.tc : Thread Cert.ReferenceIdeal.nD Cert.ReferenceIdeal.τ).loc Cert.ReferenceIdeal.main_arg21)) : Cert.KernelIdeal.S128x128.Idx → EReal) = (m ((c.tc : Thread Cert.KernelIdeal.nD Cert.KernelIdeal.τ).loc Cert.KernelIdeal.main_arg21)) := e21
  have a22 : ((m' ((c.tc : Thread Cert.ReferenceIdeal.nD Cert.ReferenceIdeal.τ).loc Cert.ReferenceIdeal.main_arg22)) : Cert.KernelIdeal.S128.Idx → EReal) = (m ((c.tc : Thread Cert.KernelIdeal.nD Cert.KernelIdeal.τ).loc Cert.KernelIdeal.main_arg22)) := e22
  have a23 : ((m' ((c.tc : Thread Cert.ReferenceIdeal.nD Cert.ReferenceIdeal.τ).loc Cert.ReferenceIdeal.main_arg23)) : Cert.KernelIdeal.S128x128.Idx → EReal) = (m ((c.tc : Thread Cert.KernelIdeal.nD Cert.KernelIdeal.τ).loc Cert.KernelIdeal.main_arg23)) := e23
  have a24 : ((m' ((c.tc : Thread Cert.ReferenceIdeal.nD Cert.ReferenceIdeal.τ).loc Cert.ReferenceIdeal.main_arg24)) : Cert.KernelIdeal.S128.Idx → EReal) = (m ((c.tc : Thread Cert.KernelIdeal.nD Cert.KernelIdeal.τ).loc Cert.KernelIdeal.main_arg24)) := e24
  have a25 : ((m' ((c.tc : Thread Cert.ReferenceIdeal.nD Cert.ReferenceIdeal.τ).loc Cert.ReferenceIdeal.main_arg25)) : Cert.KernelIdeal.S128x2.Idx → EReal) = (m ((c.tc : Thread Cert.KernelIdeal.nD Cert.KernelIdeal.τ).loc Cert.KernelIdeal.main_arg25)) := e25
  have a26 : ((m' ((c.tc : Thread Cert.ReferenceIdeal.nD Cert.ReferenceIdeal.τ).loc Cert.ReferenceIdeal.main_arg26)) : Cert.KernelIdeal.S2.Idx → EReal) = (m ((c.tc : Thread Cert.KernelIdeal.nD Cert.KernelIdeal.τ).loc Cert.KernelIdeal.main_arg26)) := e26
  exact Cert.Net.network_congr a0 a1 a2 a3 a4 a5 a6 a7 a8 a9 a10 a11 a12 a13 a14 a15 a16 a17 a18 a19 a20 a21 a22 a23 a24 a25 a26

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
